-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v81)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v81) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v92) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x10 : Shape := ⟨2, ![100000, 10]⟩
abbrev S2x2500000 : Shape := ⟨2, ![2, 2500000]⟩
abbrev S10x32 : Shape := ⟨2, ![10, 32]⟩
abbrev S32 : Shape := ⟨1, ![32]⟩
abbrev S32x16 : Shape := ⟨2, ![32, 16]⟩
abbrev S16 : Shape := ⟨1, ![16]⟩
abbrev S_ : Shape := ⟨0, ![]⟩

class Facts : Prop where
  bcast_S_S100000x10 : S_.BroadcastsInDim S100000x10 (![] : Fin 0 → Fin S100000x10.rank)
  reducesTo_S100000x10_S_d0_1 : S100000x10.ReducesTo [0, 1] S_
  h_S_ : 0 < S_.numel
  bcast_S_S10x32 : S_.BroadcastsInDim S10x32 (![] : Fin 0 → Fin S10x32.rank)
  reducesTo_S10x32_S_d0_1 : S10x32.ReducesTo [0, 1] S_
  bcast_S_S32 : S_.BroadcastsInDim S32 (![] : Fin 0 → Fin S32.rank)
  reducesTo_S32_S_d0 : S32.ReducesTo [0] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S32x16 1) : IVec S_ 1 :=
  let main_c_5 : IVec S_ 1 := constantI S_ 1 1#1
  let main_v17 : IVec S_ 1 := (fun x v => Host.reduce IntOp.andi x v reducesTo_S32x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x10 .f32) (main_arg1 : IVec S2x2500000 32) (main_arg2 : FVec F S10x32 .f32) (main_arg3 : FVec F S32 .f32) (main_arg4 : FVec F S32x16 .f32) (main_arg5 : FVec F S16 .f32) : IVec S_ 1 :=
  let main_v0 : FVec F S100000x10 .f32 := Host.absf main_arg0
  let main_cst : FVec F S_ .f32 := constant S_ .f32 0x7F800000#32
  let main_v1 : FVec F S100000x10 .f32 := broadcastInDim S100000x10 ![] bcast_S_S100000x10 main_cst
  let main_v2 : IVec S100000x10 1 := cmpf .olt main_v0 main_v1
  let main_c : IVec S_ 1 := constantI S_ 1 1#1
  let main_v3 : IVec S_ 1 := (fun x v => Host.reduce IntOp.andi x v reducesTo_S100000x10_S_d0_1 h_S_) main_v2 main_c
  let main_v4 : FVec F S10x32 .f32 := Host.absf main_arg2
  let main_cst_0 : FVec F S_ .f32 := constant S_ .f32 0x7F800000#32
  let main_v5 : FVec F S10x32 .f32 := broadcastInDim S10x32 ![] bcast_S_S10x32 main_cst_0
  let main_v6 : IVec S10x32 1 := cmpf .olt main_v4 main_v5
  let main_c_1 : IVec S_ 1 := constantI S_ 1 1#1
  let main_v7 : IVec S_ 1 := (fun x v => Host.reduce IntOp.andi x v reducesTo_S10x32_S_d0_1 h_S_) main_v6 main_c_1
  let main_v8 : IVec S_ 1 := andi main_v3 main_v7
  let main_v9 : FVec F S32 .f32 := Host.absf main_arg3
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x16 .f32 := Host.absf main_arg4
  let main_cst_4 : FVec F S_ .f32 := constant S_ .f32 0x7F800000#32
  let main_v15 : FVec F S32x16 .f32 := broadcastInDim S32x16 ![] bcast_S_S32x16 main_cst_4
  let main_v16 : IVec S32x16 1 := cmpf .olt main_v14 main_v15
  fn_part1 (F := F) main_arg5 main_v13 main_v16
-- ==== Kernel.lean ====
abbrev S100000x10 : Shape := ⟨2, ![100000, 10]⟩
abbrev S2x2500000 : Shape := ⟨2, ![2, 2500000]⟩
abbrev S10x32 : Shape := ⟨2, ![10, 32]⟩
abbrev S32 : Shape := ⟨1, ![32]⟩
abbrev S32x16 : Shape := ⟨2, ![32, 16]⟩
abbrev S16 : Shape := ⟨1, ![16]⟩
abbrev S1x2500000 : Shape := ⟨2, ![1, 2500000]⟩
abbrev S2500000 : Shape := ⟨1, ![2500000]⟩
abbrev S100000x32 : Shape := ⟨2, ![100000, 32]⟩
abbrev S5000x10 : Shape := ⟨2, ![5000, 10]⟩
abbrev S5000x32 : Shape := ⟨2, ![5000, 32]⟩
abbrev S_ : Shape := ⟨0, ![]⟩
abbrev S100000 : Shape := ⟨1, ![100000]⟩
abbrev S2500000x1 : Shape := ⟨2, ![2500000, 1]⟩
abbrev S2500000x32 : Shape := ⟨2, ![2500000, 32]⟩
abbrev S100000x1 : Shape := ⟨2, ![100000, 1]⟩
abbrev S1x32 : Shape := ⟨2, ![1, 32]⟩
abbrev S5000x1 : Shape := ⟨2, ![5000, 1]⟩
abbrev S100000x16 : Shape := ⟨2, ![100000, 16]⟩
abbrev S5000x16 : Shape := ⟨2, ![5000, 16]⟩
abbrev S2500000x16 : Shape := ⟨2, ![2500000, 16]⟩
abbrev S1x16 : Shape := ⟨2, ![1, 16]⟩

abbrev nBuf : Space → Nat
  | .hbm => 108
  | .vmem => 28
  | .smem => 0
  | _ => 0

abbrev bufTy : (tb : Table) → Fin (tcTables nBuf tb) → BufTy
  | .hbm, ⟨0, _⟩ => ⟨S100000x10, .f32⟩
  | .hbm, ⟨1, _⟩ => ⟨S2x2500000, .i32⟩
  | .hbm, ⟨2, _⟩ => ⟨S10x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S1x2500000, .i32⟩
  | .hbm, ⟨7, _⟩ => ⟨S2500000, .i32⟩
  | .hbm, ⟨8, _⟩ => ⟨S1x2500000, .i32⟩
  | .hbm, ⟨9, _⟩ => ⟨S2500000, .i32⟩
  | .hbm, ⟨10, _⟩ => ⟨S100000x32, .f32⟩
  | .hbm, ⟨11, _⟩ => ⟨S_, .f32⟩
  | .hbm, ⟨12, _⟩ => ⟨S2500000, .f32⟩
  | .hbm, ⟨13, _⟩ => ⟨S_, .f32⟩
  | .hbm, ⟨14, _⟩ => ⟨S100000, .f32⟩
  | .hbm, ⟨15, _⟩ => ⟨S2500000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S2500000, .i32⟩
  | .hbm, ⟨23, _⟩ => ⟨S2500000, .i1⟩
  | .hbm, ⟨24, _⟩ => ⟨S_, .i32⟩
  | .hbm, ⟨25, _⟩ => ⟨S2500000, .i32⟩
  | .hbm, ⟨26, _⟩ => ⟨S2500000, .i32⟩
  | .hbm, ⟨27, _⟩ => ⟨S2500000, .i32⟩
  | .hbm, ⟨28, _⟩ => ⟨S2500000x1, .i32⟩
  | .hbm, ⟨29, _⟩ => ⟨S2500000, .f32⟩
  | .hbm, ⟨30, _⟩ => ⟨S_, .i32⟩
  | .hbm, ⟨31, _⟩ => ⟨S2500000, .i32⟩
  | .hbm, ⟨32, _⟩ => ⟨S2500000, .i1⟩
  | .hbm, ⟨33, _⟩ => ⟨S_, .i32⟩
  | .hbm, ⟨34, _⟩ => ⟨S2500000, .i32⟩
  | .hbm, ⟨35, _⟩ => ⟨S2500000, .i32⟩
  | .hbm, ⟨36, _⟩ => ⟨S2500000, .i32⟩
  | .hbm, ⟨37, _⟩ => ⟨S2500000x1, .i32⟩
  | .hbm, ⟨38, _⟩ => ⟨S2500000, .f32⟩
  | .hbm, ⟨39, _⟩ => ⟨S2500000, .f32⟩
  | .hbm, ⟨40, _⟩ => ⟨S_, .i32⟩
  | .hbm, ⟨41, _⟩ => ⟨S2500000, .i32⟩
  | .hbm, ⟨42, _⟩ => ⟨S2500000, .i1⟩
  | .hbm, ⟨43, _⟩ => ⟨S_, .i32⟩
  | .hbm, ⟨44, _⟩ => ⟨S2500000, .i32⟩
  | .hbm, ⟨45, _⟩ => ⟨S2500000, .i32⟩
  | .hbm, ⟨46, _⟩ => ⟨S2500000, .i32⟩
  | .hbm, ⟨47, _⟩ => ⟨S2500000x1, .i32⟩
  | .hbm, ⟨48, _⟩ => ⟨S2500000x32, .f32⟩
  | .hbm, ⟨49, _⟩ => ⟨S2500000x1, .f32⟩
  | .hbm, ⟨50, _⟩ => ⟨S2500000x32, .f32⟩
  | .hbm, ⟨51, _⟩ => ⟨S2500000x32, .f32⟩
  | .hbm, ⟨52, _⟩ => ⟨S_, .f32⟩
  | .hbm, ⟨53, _⟩ => ⟨S100000x32, .f32⟩
  | .hbm, ⟨54, _⟩ => ⟨S2500000x1, .i32⟩
  | .hbm, ⟨55, _⟩ => ⟨S100000x32, .f32⟩
  | .hbm, ⟨56, _⟩ => ⟨S100000x1, .f32⟩
  | .hbm, ⟨57, _⟩ => ⟨S1x32, .f32⟩
  | .hbm, ⟨58, _⟩ => ⟨S100000x32, .f32⟩
  | .hbm, ⟨59, _⟩ => ⟨S100000x16, .f32⟩
  | .hbm, ⟨60, _⟩ => ⟨S_, .f32⟩
  | .hbm, ⟨61, _⟩ => ⟨S2500000, .f32⟩
  | .hbm, ⟨62, _⟩ => ⟨S_, .f32⟩
  | .hbm, ⟨63, _⟩ => ⟨S100000, .f32⟩
  | .hbm, ⟨64, _⟩ => ⟨S2500000x1, .i32⟩
  | .hbm, ⟨65, _⟩ => ⟨S100000, .f32⟩
  | .hbm, ⟨66, _⟩ => ⟨S_, .f32⟩
  | .hbm, ⟨67, _⟩ => ⟨S100000, .f32⟩
  | .hbm, ⟨68, _⟩ => ⟨S100000, .f32⟩
  | .hbm, ⟨69, _⟩ => ⟨S100000, .f32⟩
  | .hbm, ⟨70, _⟩ => ⟨S_, .i32⟩
  | .hbm, ⟨71, _⟩ => ⟨S2500000, .i32⟩
  | .hbm, ⟨72, _⟩ => ⟨S2500000, .i1⟩
  | .hbm, ⟨73, _⟩ => ⟨S_, .i32⟩
  | .hbm, ⟨74, _⟩ => ⟨S2500000, .i32⟩
  | .hbm, ⟨75, _⟩ => ⟨S2500000, .i32⟩
  | .hbm, ⟨76, _⟩ => ⟨S2500000, .i32⟩
  | .hbm, ⟨77, _⟩ => ⟨S2500000x1, .i32⟩
  | .hbm, ⟨78, _⟩ => ⟨S2500000, .f32⟩
  | .hbm, ⟨79, _⟩ => ⟨S_, .i32⟩
  | .hbm, ⟨80, _⟩ => ⟨S2500000, .i32⟩
  | .hbm, ⟨81, _⟩ => ⟨S2500000, .i1⟩
  | .hbm, ⟨82, _⟩ => ⟨S_, .i32⟩
  | .hbm, ⟨83, _⟩ => ⟨S2500000, .i32⟩
  | .hbm, ⟨84, _⟩ => ⟨S2500000, .i32⟩
  | .hbm, ⟨85, _⟩ => ⟨S2500000, .i32⟩
  | .hbm, ⟨86, _⟩ => ⟨S2500000x1, .i32⟩
  | .hbm, ⟨87, _⟩ => ⟨S2500000, .f32⟩
  | .hbm, ⟨88, _⟩ => ⟨S2500000, .f32⟩
  | .hbm, ⟨89, _⟩ => ⟨S_, .i32⟩
  | .hbm, ⟨90, _⟩ => ⟨S2500000, .i32⟩
  | .hbm, ⟨91, _⟩ => ⟨S2500000, .i1⟩
  | .hbm, ⟨92, _⟩ => ⟨S_, .i32⟩
  | .hbm, ⟨93, _⟩ => ⟨S2500000, .i32⟩
  | .hbm, ⟨94, _⟩ => ⟨S2500000, .i32⟩
  | .hbm, ⟨95, _⟩ => ⟨S2500000, .i32⟩
  | .hbm, ⟨96, _⟩ => ⟨S2500000x1, .i32⟩
  | .hbm, ⟨97, _⟩ => ⟨S2500000x16, .f32⟩
  | .hbm, ⟨98, _⟩ => ⟨S2500000x1, .f32⟩
  | .hbm, ⟨99, _⟩ => ⟨S2500000x16, .f32⟩
  | .hbm, ⟨100, _⟩ => ⟨S2500000x16, .f32⟩
  | .hbm, ⟨101, _⟩ => ⟨S_, .f32⟩
  | .hbm, ⟨102, _⟩ => ⟨S100000x16, .f32⟩
  | .hbm, ⟨103, _⟩ => ⟨S2500000x1, .i32⟩
  | .hbm, ⟨104, _⟩ => ⟨S100000x16, .f32⟩
  | .hbm, ⟨105, _⟩ => ⟨S100000x1, .f32⟩
  | .hbm, ⟨106, _⟩ => ⟨S1x16, .f32⟩
  | .hbm, ⟨107, _⟩ => ⟨S100000x16, .f32⟩
  | .local _ .vmem, ⟨0, _⟩ => ⟨S5000x10, .f32⟩
  | .local _ .vmem, ⟨1, _⟩ => ⟨S5000x10, .f32⟩
  | .local _ .vmem, ⟨2, _⟩ => ⟨S10x32, .f32⟩
  | .local _ .vmem, ⟨3, _⟩ => ⟨S5000x32, .f32⟩
  | .local _ .vmem, ⟨4, _⟩ => ⟨S5000x32, .f32⟩
  | .local _ .vmem, ⟨5, _⟩ => ⟨S5000x32, .f32⟩
  | .local _ .vmem, ⟨6, _⟩ => ⟨S5000x32, .f32⟩
  | .local _ .vmem, ⟨7, _⟩ => ⟨S5000x32, .f32⟩
  | .local _ .vmem, ⟨8, _⟩ => ⟨S5000x32, .f32⟩
  | .local _ .vmem, ⟨9, _⟩ => ⟨S5000x1, .f32⟩
  | .local _ .vmem, ⟨10, _⟩ => ⟨S5000x1, .f32⟩
  | .local _ .vmem, ⟨11, _⟩ => ⟨S1x32, .f32⟩
  | .local _ .vmem, ⟨12, _⟩ => ⟨S5000x32, .f32⟩
  | .local _ .vmem, ⟨13, _⟩ => ⟨S5000x32, .f32⟩
  | .local _ .vmem, ⟨14, _⟩ => ⟨S5000x32, .f32⟩
  | .local _ .vmem, ⟨15, _⟩ => ⟨S5000x32, .f32⟩
  | .local _ .vmem, ⟨16, _⟩ => ⟨S32x16, .f32⟩
  | .local _ .vmem, ⟨17, _⟩ => ⟨S5000x16, .f32⟩
  | .local _ .vmem, ⟨18, _⟩ => ⟨S5000x16, .f32⟩
  | .local _ .vmem, ⟨19, _⟩ => ⟨S5000x16, .f32⟩
  | .local _ .vmem, ⟨20, _⟩ => ⟨S5000x16, .f32⟩
  | .local _ .vmem, ⟨21, _⟩ => ⟨S5000x16, .f32⟩
  | .local _ .vmem, ⟨22, _⟩ => ⟨S5000x16, .f32⟩
  | .local _ .vmem, ⟨23, _⟩ => ⟨S5000x1, .f32⟩
  | .local _ .vmem, ⟨24, _⟩ => ⟨S5000x1, .f32⟩
  | .local _ .vmem, ⟨25, _⟩ => ⟨S1x16, .f32⟩
  | .local _ .vmem, ⟨26, _⟩ => ⟨S5000x16, .f32⟩
  | .local _ .vmem, ⟨27, _⟩ => ⟨S5000x16, .f32⟩
  | _, _ => ⟨S100000x10, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_10 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_c_11 : Ref sig .tc := ⟨.hbm, 70, rfl⟩
abbrev main_v51 : Ref sig .tc := ⟨.hbm, 71, rfl⟩
abbrev main_v52 : Ref sig .tc := ⟨.hbm, 72, rfl⟩
abbrev main_c_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_c_13 : Ref sig .tc := ⟨.hbm, 79, rfl⟩
abbrev main_v58 : Ref sig .tc := ⟨.hbm, 80, rfl⟩
abbrev main_v59 : Ref sig .tc := ⟨.hbm, 81, rfl⟩
abbrev main_c_14 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_c_15 : Ref sig .tc := ⟨.hbm, 89, rfl⟩
abbrev main_v66 : Ref sig .tc := ⟨.hbm, 90, rfl⟩
abbrev main_v67 : Ref sig .tc := ⟨.hbm, 91, rfl⟩
abbrev main_c_16 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_17 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x10 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x16 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x16 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S5000x16 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  inb_S5000x10_S5000x10_0_0 : ∀ a, (![0, 0] : Fin 2 → Nat) a + S5000x10.size a ≤ S5000x10.size a
  h_S5000x10 : 0 < S5000x10.numel
  bitsLt_bf16_f32 : FTy.bits .bf16 < FTy.bits .f32
  inb_S10x32_S10x32_0_0 : ∀ a, (![0, 0] : Fin 2 → Nat) a + S10x32.size a ≤ S10x32.size a
  h_S10x32 : 0 < S10x32.numel
  inb_S5000x32_S5000x32_0_0 : ∀ a, (![0, 0] : Fin 2 → Nat) a + S5000x32.size a ≤ S5000x32.size a
  h_S5000x32 : 0 < S5000x32.numel
  bcast_S_S2500000 : S_.BroadcastsInDim S2500000 (![] : Fin 0 → Fin S2500000.rank)
  bcast_S_S100000 : S_.BroadcastsInDim S100000 (![] : Fin 0 → Fin S100000.rank)
  bcast_S2500000_S2500000x1_0 : S2500000.BroadcastsInDim S2500000x1 (![0] : Fin 1 → Fin S2500000x1.rank)
  bcast_S2500000x1_S2500000x32_0_1 : S2500000x1.BroadcastsInDim S2500000x32 (![0, 1] : Fin 2 → Fin S2500000x32.rank)
  bcast_S_S100000x32 : S_.BroadcastsInDim S100000x32 (![] : Fin 0 → Fin S100000x32.rank)
  shapeCasts_S100000_S100000x1 : S100000.ShapeCasts S100000x1
  shapeCasts_S32_S1x32 : S32.ShapeCasts S1x32
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  shapeCasts_S5000x32_S5000x32 : S5000x32.ShapeCasts S5000x32
  broadcasts_S5000x1_S5000x32 : S5000x1.Broadcasts S5000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x16_S32x16_0_0 : ∀ a, (![0, 0] : Fin 2 → Nat) a + S32x16.size a ≤ S32x16.size a
  h_S32x16 : 0 < S32x16.numel
  inb_S5000x16_S5000x16_0_0 : ∀ a, (![0, 0] : Fin 2 → Nat) a + S5000x16.size a ≤ S5000x16.size a
  h_S5000x16 : 0 < S5000x16.numel
  bcast_S2500000x1_S2500000x16_0_1 : S2500000x1.BroadcastsInDim S2500000x16 (![0, 1] : Fin 2 → Fin S2500000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  broadcasts_S5000x1_S5000x16 : S5000x1.Broadcasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  dot_S5000x10_S10x32_S5000x32_1_0_0_1_n_n_wf : DotDims.WF S5000x10 S10x32 S5000x32 [1] [0] [0] [1] [] []
  scatter_S100000_S2500000x1_S2500000_n_0_0_1_wf : ScatterDims.WF S100000 S2500000x1 S2500000 [] [0] [0] 1
  gather_S100000_S2500000x1_S2500000_n_0_n_n_0_1_1_wf : GatherDims.WF S100000 S2500000x1 S2500000 [] [0] [] [0] [] 1 ![1]
  gather_S100000x32_S2500000x1_S2500000x32_1_0_n_n_0_1_132_wf : GatherDims.WF S100000x32 S2500000x1 S2500000x32 [1] [0] [] [0] [] 1 ![1, 32]
  scatter_S100000x32_S2500000x1_S2500000x32_1_0_0_1_wf : ScatterDims.WF S100000x32 S2500000x1 S2500000x32 [1] [0] [0] 1
  dot_S5000x32_S32x16_S5000x16_1_0_0_1_n_n_wf : DotDims.WF S5000x32 S32x16 S5000x16 [1] [0] [0] [1] [] []
  gather_S100000x16_S2500000x1_S2500000x16_1_0_n_n_0_1_116_wf : GatherDims.WF S100000x16 S2500000x1 S2500000x16 [1] [0] [] [0] [] 1 ![1, 16]
  scatter_S100000x16_S2500000x1_S2500000x16_1_0_0_1_wf : ScatterDims.WF S100000x16 S2500000x1 S2500000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x10.size a ≤ S100000x10.size a
  hwx0_0 : ∀ i : grid0.Coords, EltTy.bits .f32 = 32 ∨ (Rect.block (s := S100000x10) S5000x10.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10x32.size a ≤ S10x32.size a
  hwx0_1 : ∀ i : grid0.Coords, EltTy.bits .f32 = 32 ∨ (Rect.block (s := S10x32) S10x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x32.size a ≤ S100000x32.size a
  hwx0_2 : ∀ i : grid0.Coords, EltTy.bits .f32 = 32 ∨ (Rect.block (s := S100000x32) S5000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x32.size a ≤ S100000x32.size a
  hwx1_0 : ∀ i : grid1.Coords, EltTy.bits .f32 = 32 ∨ (Rect.block (s := S100000x32) S5000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x32.size a ≤ S100000x32.size a
  hwx1_1 : ∀ i : grid1.Coords, EltTy.bits .f32 = 32 ∨ (Rect.block (s := S100000x32) S5000x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x32.size a ≤ S100000x32.size a
  hwx1_4 : ∀ i : grid1.Coords, EltTy.bits .f32 = 32 ∨ (Rect.block (s := S100000x32) S5000x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x32.size a ≤ S100000x32.size a
  hwx2_0 : ∀ i : grid2.Coords, EltTy.bits .f32 = 32 ∨ (Rect.block (s := S100000x32) S5000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x16.size a ≤ S32x16.size a
  hwx2_1 : ∀ i : grid2.Coords, EltTy.bits .f32 = 32 ∨ (Rect.block (s := S32x16) S32x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x16.size a ≤ S100000x16.size a
  hwx3_1 : ∀ i : grid3.Coords, EltTy.bits .f32 = 32 ∨ (Rect.block (s := S100000x16) S5000x16.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x1.size a ≤ S100000x1.size a
  hwx3_2 : ∀ i : grid3.Coords, EltTy.bits .f32 = 32 ∨ (Rect.block (s := S100000x1) S5000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x16.size a ≤ S1x16.size a
  hwx3_3 : ∀ i : grid3.Coords, EltTy.bits .f32 = 32 ∨ (Rect.block (s := S1x16) S1x16.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x16.size a ≤ S100000x16.size a
  hwx3_4 : ∀ i : grid3.Coords, EltTy.bits .f32 = 32 ∨ (Rect.block (s := S100000x16) S5000x16.size (cc3_transform_4 i) (hinb3_4 i)).WholeWords (EltTy.packing .f32)

variable [Facts₀]

def dot_S5000x10_S10x32_S5000x32_1_0_0_1_n_n : DotDims S5000x10 S10x32 S5000x32 where
  lhsContracting := [1]
  rhsContracting := [0]
  lhsNonContracting := [0]
  rhsNonContracting := [1]
  lhsBatch := []
  rhsBatch := []
  wf := dot_S5000x10_S10x32_S5000x32_1_0_0_1_n_n_wf
def scatter_S100000_S2500000x1_S2500000_n_0_0_1 : ScatterDims S100000 S2500000x1 S2500000 where
  updateWindowDims := []
  insertedWindowDims := [0]
  scatterDimsToOperandDims := [0]
  indexVectorDim := 1
  wf := scatter_S100000_S2500000x1_S2500000_n_0_0_1_wf
def gather_S100000_S2500000x1_S2500000_n_0_n_n_0_1_1 : GatherDims S100000 S2500000x1 S2500000 where
  offsetDims := []
  collapsedSliceDims := [0]
  operandBatchingDims := []
  startIndicesBatchingDims := []
  startIndexMap := [0]
  indexVectorDim := 1
  sliceSizes := ![1]
  wf := gather_S100000_S2500000x1_S2500000_n_0_n_n_0_1_1_wf
def gather_S100000x32_S2500000x1_S2500000x32_1_0_n_n_0_1_132 : GatherDims S100000x32 S2500000x1 S2500000x32 where
  offsetDims := [1]
  collapsedSliceDims := [0]
  operandBatchingDims := []
  startIndicesBatchingDims := []
  startIndexMap := [0]
  indexVectorDim := 1
  sliceSizes := ![1, 32]
  wf := gather_S100000x32_S2500000x1_S2500000x32_1_0_n_n_0_1_132_wf
def scatter_S100000x32_S2500000x1_S2500000x32_1_0_0_1 : ScatterDims S100000x32 S2500000x1 S2500000x32 where
  updateWindowDims := [1]
  insertedWindowDims := [0]
  scatterDimsToOperandDims := [0]
  indexVectorDim := 1
  wf := scatter_S100000x32_S2500000x1_S2500000x32_1_0_0_1_wf
def dot_S5000x32_S32x16_S5000x16_1_0_0_1_n_n : DotDims S5000x32 S32x16 S5000x16 where
  lhsContracting := [1]
  rhsContracting := [0]
  lhsNonContracting := [0]
  rhsNonContracting := [1]
  lhsBatch := []
  rhsBatch := []
  wf := dot_S5000x32_S32x16_S5000x16_1_0_0_1_n_n_wf
def gather_S100000x16_S2500000x1_S2500000x16_1_0_n_n_0_1_116 : GatherDims S100000x16 S2500000x1 S2500000x16 where
  offsetDims := [1]
  collapsedSliceDims := [0]
  operandBatchingDims := []
  startIndicesBatchingDims := []
  startIndexMap := [0]
  indexVectorDim := 1
  sliceSizes := ![1, 16]
  wf := gather_S100000x16_S2500000x1_S2500000x16_1_0_n_n_0_1_116_wf
def scatter_S100000x16_S2500000x1_S2500000x16_1_0_0_1 : ScatterDims S100000x16 S2500000x1 S2500000x16 where
  updateWindowDims := [1]
  insertedWindowDims := [0]
  scatterDimsToOperandDims := [0]
  indexVectorDim := 1
  wf := scatter_S100000x16_S2500000x1_S2500000x16_1_0_0_1_wf

abbrev win0_0 : Pipeline.Window sig grid0 :=
  Pipeline.Window.ofSpec (Memref.whole main_arg0) S5000x10.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S10x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S5000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v4) S5000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S5000x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v42) S5000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S32x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v43) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v78) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v43) S5000x16.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v79) S5000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v80) S1x16.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v81) S5000x16.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S100000x10 : Shape := ⟨2, ![100000, 10]⟩
abbrev S2x2500000 : Shape := ⟨2, ![2, 2500000]⟩
abbrev S10x32 : Shape := ⟨2, ![10, 32]⟩
abbrev S32 : Shape := ⟨1, ![32]⟩
abbrev S32x16 : Shape := ⟨2, ![32, 16]⟩
abbrev S16 : Shape := ⟨1, ![16]⟩
abbrev S1x2500000 : Shape := ⟨2, ![1, 2500000]⟩
abbrev S2500000 : Shape := ⟨1, ![2500000]⟩
abbrev S100000x32 : Shape := ⟨2, ![100000, 32]⟩
abbrev S_ : Shape := ⟨0, ![]⟩
abbrev S100000 : Shape := ⟨1, ![100000]⟩
abbrev S2500000x1 : Shape := ⟨2, ![2500000, 1]⟩
abbrev S2500000x32 : Shape := ⟨2, ![2500000, 32]⟩
abbrev S100000x1 : Shape := ⟨2, ![100000, 1]⟩
abbrev S1x32 : Shape := ⟨2, ![1, 32]⟩
abbrev S100000x16 : Shape := ⟨2, ![100000, 16]⟩
abbrev S2500000x16 : Shape := ⟨2, ![2500000, 16]⟩
abbrev S1x16 : Shape := ⟨2, ![1, 16]⟩

abbrev nBuf : Space → Nat
  | .hbm => 121
  | .vmem => 0
  | .smem => 0
  | _ => 0

abbrev bufTy : (tb : Table) → Fin (tcTables nBuf tb) → BufTy
  | .hbm, ⟨0, _⟩ => ⟨S100000x10, .f32⟩
  | .hbm, ⟨1, _⟩ => ⟨S2x2500000, .i32⟩
  | .hbm, ⟨2, _⟩ => ⟨S10x32, .f32⟩
  | .hbm, ⟨3, _⟩ => ⟨S32, .f32⟩
  | .hbm, ⟨4, _⟩ => ⟨S32x16, .f32⟩
  | .hbm, ⟨5, _⟩ => ⟨S16, .f32⟩
  | .hbm, ⟨6, _⟩ => ⟨S1x2500000, .i32⟩
  | .hbm, ⟨7, _⟩ => ⟨S2500000, .i32⟩
  | .hbm, ⟨8, _⟩ => ⟨S1x2500000, .i32⟩
  | .hbm, ⟨9, _⟩ => ⟨S2500000, .i32⟩
  | .hbm, ⟨10, _⟩ => ⟨S100000x32, .f32⟩
  | .hbm, ⟨11, _⟩ => ⟨S_, .f32⟩
  | .hbm, ⟨12, _⟩ => ⟨S2500000, .f32⟩
  | .hbm, ⟨13, _⟩ => ⟨S_, .f32⟩
  | .hbm, ⟨14, _⟩ => ⟨S100000, .f32⟩
  | .hbm, ⟨15, _⟩ => ⟨S2500000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .i32⟩
  | .hbm, ⟨22, _⟩ => ⟨S2500000, .i32⟩
  | .hbm, ⟨23, _⟩ => ⟨S2500000, .i1⟩
  | .hbm, ⟨24, _⟩ => ⟨S_, .i32⟩
  | .hbm, ⟨25, _⟩ => ⟨S2500000, .i32⟩
  | .hbm, ⟨26, _⟩ => ⟨S2500000, .i32⟩
  | .hbm, ⟨27, _⟩ => ⟨S2500000, .i32⟩
  | .hbm, ⟨28, _⟩ => ⟨S2500000x1, .i32⟩
  | .hbm, ⟨29, _⟩ => ⟨S2500000, .f32⟩
  | .hbm, ⟨30, _⟩ => ⟨S_, .i32⟩
  | .hbm, ⟨31, _⟩ => ⟨S2500000, .i32⟩
  | .hbm, ⟨32, _⟩ => ⟨S2500000, .i1⟩
  | .hbm, ⟨33, _⟩ => ⟨S_, .i32⟩
  | .hbm, ⟨34, _⟩ => ⟨S2500000, .i32⟩
  | .hbm, ⟨35, _⟩ => ⟨S2500000, .i32⟩
  | .hbm, ⟨36, _⟩ => ⟨S2500000, .i32⟩
  | .hbm, ⟨37, _⟩ => ⟨S2500000x1, .i32⟩
  | .hbm, ⟨38, _⟩ => ⟨S2500000, .f32⟩
  | .hbm, ⟨39, _⟩ => ⟨S2500000, .f32⟩
  | .hbm, ⟨40, _⟩ => ⟨S_, .i32⟩
  | .hbm, ⟨41, _⟩ => ⟨S2500000, .i32⟩
  | .hbm, ⟨42, _⟩ => ⟨S2500000, .i1⟩
  | .hbm, ⟨43, _⟩ => ⟨S_, .i32⟩
  | .hbm, ⟨44, _⟩ => ⟨S2500000, .i32⟩
  | .hbm, ⟨45, _⟩ => ⟨S2500000, .i32⟩
  | .hbm, ⟨46, _⟩ => ⟨S2500000, .i32⟩
  | .hbm, ⟨47, _⟩ => ⟨S2500000x1, .i32⟩
  | .hbm, ⟨48, _⟩ => ⟨S2500000x32, .f32⟩
  | .hbm, ⟨49, _⟩ => ⟨S2500000x1, .f32⟩
  | .hbm, ⟨50, _⟩ => ⟨S2500000x32, .f32⟩
  | .hbm, ⟨51, _⟩ => ⟨S2500000x32, .f32⟩
  | .hbm, ⟨52, _⟩ => ⟨S_, .f32⟩
  | .hbm, ⟨53, _⟩ => ⟨S100000x32, .f32⟩
  | .hbm, ⟨54, _⟩ => ⟨S2500000x1, .i32⟩
  | .hbm, ⟨55, _⟩ => ⟨S100000x32, .f32⟩
  | .hbm, ⟨56, _⟩ => ⟨S100000, .f32⟩
  | .hbm, ⟨57, _⟩ => ⟨S100000x1, .f32⟩
  | .hbm, ⟨58, _⟩ => ⟨S100000x32, .f32⟩
  | .hbm, ⟨59, _⟩ => ⟨S100000x32, .f32⟩
  | .hbm, ⟨60, _⟩ => ⟨S100000x32, .f32⟩
  | .hbm, ⟨61, _⟩ => ⟨S1x32, .f32⟩
  | .hbm, ⟨62, _⟩ => ⟨S100000x32, .f32⟩
  | .hbm, ⟨63, _⟩ => ⟨S100000x32, .f32⟩
  | .hbm, ⟨64, _⟩ => ⟨S_, .f32⟩
  | .hbm, ⟨65, _⟩ => ⟨S100000x32, .f32⟩
  | .hbm, ⟨66, _⟩ => ⟨S100000x32, .f32⟩
  | .hbm, ⟨67, _⟩ => ⟨S100000x16, .f32⟩
  | .hbm, ⟨68, _⟩ => ⟨S_, .f32⟩
  | .hbm, ⟨69, _⟩ => ⟨S2500000, .f32⟩
  | .hbm, ⟨70, _⟩ => ⟨S_, .f32⟩
  | .hbm, ⟨71, _⟩ => ⟨S100000, .f32⟩
  | .hbm, ⟨72, _⟩ => ⟨S2500000x1, .i32⟩
  | .hbm, ⟨73, _⟩ => ⟨S100000, .f32⟩
  | .hbm, ⟨74, _⟩ => ⟨S_, .f32⟩
  | .hbm, ⟨75, _⟩ => ⟨S100000, .f32⟩
  | .hbm, ⟨76, _⟩ => ⟨S100000, .f32⟩
  | .hbm, ⟨77, _⟩ => ⟨S100000, .f32⟩
  | .hbm, ⟨78, _⟩ => ⟨S_, .i32⟩
  | .hbm, ⟨79, _⟩ => ⟨S2500000, .i32⟩
  | .hbm, ⟨80, _⟩ => ⟨S2500000, .i1⟩
  | .hbm, ⟨81, _⟩ => ⟨S_, .i32⟩
  | .hbm, ⟨82, _⟩ => ⟨S2500000, .i32⟩
  | .hbm, ⟨83, _⟩ => ⟨S2500000, .i32⟩
  | .hbm, ⟨84, _⟩ => ⟨S2500000, .i32⟩
  | .hbm, ⟨85, _⟩ => ⟨S2500000x1, .i32⟩
  | .hbm, ⟨86, _⟩ => ⟨S2500000, .f32⟩
  | .hbm, ⟨87, _⟩ => ⟨S_, .i32⟩
  | .hbm, ⟨88, _⟩ => ⟨S2500000, .i32⟩
  | .hbm, ⟨89, _⟩ => ⟨S2500000, .i1⟩
  | .hbm, ⟨90, _⟩ => ⟨S_, .i32⟩
  | .hbm, ⟨91, _⟩ => ⟨S2500000, .i32⟩
  | .hbm, ⟨92, _⟩ => ⟨S2500000, .i32⟩
  | .hbm, ⟨93, _⟩ => ⟨S2500000, .i32⟩
  | .hbm, ⟨94, _⟩ => ⟨S2500000x1, .i32⟩
  | .hbm, ⟨95, _⟩ => ⟨S2500000, .f32⟩
  | .hbm, ⟨96, _⟩ => ⟨S2500000, .f32⟩
  | .hbm, ⟨97, _⟩ => ⟨S_, .i32⟩
  | .hbm, ⟨98, _⟩ => ⟨S2500000, .i32⟩
  | .hbm, ⟨99, _⟩ => ⟨S2500000, .i1⟩
  | .hbm, ⟨100, _⟩ => ⟨S_, .i32⟩
  | .hbm, ⟨101, _⟩ => ⟨S2500000, .i32⟩
  | .hbm, ⟨102, _⟩ => ⟨S2500000, .i32⟩
  | .hbm, ⟨103, _⟩ => ⟨S2500000, .i32⟩
  | .hbm, ⟨104, _⟩ => ⟨S2500000x1, .i32⟩
  | .hbm, ⟨105, _⟩ => ⟨S2500000x16, .f32⟩
  | .hbm, ⟨106, _⟩ => ⟨S2500000x1, .f32⟩
  | .hbm, ⟨107, _⟩ => ⟨S2500000x16, .f32⟩
  | .hbm, ⟨108, _⟩ => ⟨S2500000x16, .f32⟩
  | .hbm, ⟨109, _⟩ => ⟨S_, .f32⟩
  | .hbm, ⟨110, _⟩ => ⟨S100000x16, .f32⟩
  | .hbm, ⟨111, _⟩ => ⟨S2500000x1, .i32⟩
  | .hbm, ⟨112, _⟩ => ⟨S100000x16, .f32⟩
  | .hbm, ⟨113, _⟩ => ⟨S100000, .f32⟩
  | .hbm, ⟨114, _⟩ => ⟨S100000x1, .f32⟩
  | .hbm, ⟨115, _⟩ => ⟨S100000x16, .f32⟩
  | .hbm, ⟨116, _⟩ => ⟨S100000x16, .f32⟩
  | .hbm, ⟨117, _⟩ => ⟨S100000x16, .f32⟩
  | .hbm, ⟨118, _⟩ => ⟨S1x16, .f32⟩
  | .hbm, ⟨119, _⟩ => ⟨S100000x16, .f32⟩
  | .hbm, ⟨120, _⟩ => ⟨S100000x16, .f32⟩
  | _, _ => ⟨S100000x10, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_call0_cst : Ref sig .tc := ⟨.hbm, 64, rfl⟩
abbrev main_call0_v0 : Ref sig .tc := ⟨.hbm, 65, rfl⟩
abbrev main_v48 : Ref sig .tc := ⟨.hbm, 66, rfl⟩
abbrev main_v49 : Ref sig .tc := ⟨.hbm, 67, rfl⟩
abbrev main_cst_8 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_10 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c_11 : Ref sig .tc := ⟨.hbm, 78, rfl⟩
abbrev main_v57 : Ref sig .tc := ⟨.hbm, 79, rfl⟩
abbrev main_v58 : Ref sig .tc := ⟨.hbm, 80, rfl⟩
abbrev main_c_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_c_13 : Ref sig .tc := ⟨.hbm, 87, rfl⟩
abbrev main_v64 : Ref sig .tc := ⟨.hbm, 88, rfl⟩
abbrev main_v65 : Ref sig .tc := ⟨.hbm, 89, rfl⟩
abbrev main_c_14 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_c_15 : Ref sig .tc := ⟨.hbm, 97, rfl⟩
abbrev main_v72 : Ref sig .tc := ⟨.hbm, 98, rfl⟩
abbrev main_v73 : Ref sig .tc := ⟨.hbm, 99, rfl⟩
abbrev main_c_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_cst_17 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩

abbrev nD : Nat := 1
abbrev τ : Topo := Topo.v7x

variable {F : FTy → Type} [FloatOps F]

class Facts₀ : Prop where
  slices_S2x2500000_S1x2500000_0_0 : S2x2500000.Slices ![0, 0] S1x2500000
  shapeCasts_S1x2500000_S2500000 : S1x2500000.ShapeCasts S2500000
  slices_S2x2500000_S1x2500000_1_0 : S2x2500000.Slices ![1, 0] S1x2500000
  bcast_S_S2500000 : S_.BroadcastsInDim S2500000 (![] : Fin 0 → Fin S2500000.rank)
  bcast_S_S100000 : S_.BroadcastsInDim S100000 (![] : Fin 0 → Fin S100000.rank)
  bcast_S2500000_S2500000x1_0 : S2500000.BroadcastsInDim S2500000x1 (![0] : Fin 1 → Fin S2500000x1.rank)
  bcast_S2500000x1_S2500000x32_0_1 : S2500000x1.BroadcastsInDim S2500000x32 (![0, 1] : Fin 2 → Fin S2500000x32.rank)
  bcast_S_S100000x32 : S_.BroadcastsInDim S100000x32 (![] : Fin 0 → Fin S100000x32.rank)
  bcast_S100000_S100000x1_0 : S100000.BroadcastsInDim S100000x1 (![0] : Fin 1 → Fin S100000x1.rank)
  bcast_S100000x1_S100000x32_0_1 : S100000x1.BroadcastsInDim S100000x32 (![0, 1] : Fin 2 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S2500000x1_S2500000x16_0_1 : S2500000x1.BroadcastsInDim S2500000x16 (![0, 1] : Fin 2 → Fin S2500000x16.rank)
  bcast_S_S100000x16 : S_.BroadcastsInDim S100000x16 (![] : Fin 0 → Fin S100000x16.rank)
  bcast_S100000x1_S100000x16_0_1 : S100000x1.BroadcastsInDim S100000x16 (![0, 1] : Fin 2 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  dot_S100000x10_S10x32_S100000x32_1_0_0_1_n_n_wf : DotDims.WF S100000x10 S10x32 S100000x32 [1] [0] [0] [1] [] []
  scatter_S100000_S2500000x1_S2500000_n_0_0_1_wf : ScatterDims.WF S100000 S2500000x1 S2500000 [] [0] [0] 1
  gather_S100000_S2500000x1_S2500000_n_0_n_n_0_1_1_wf : GatherDims.WF S100000 S2500000x1 S2500000 [] [0] [] [0] [] 1 ![1]
  gather_S100000x32_S2500000x1_S2500000x32_1_0_n_n_0_1_132_wf : GatherDims.WF S100000x32 S2500000x1 S2500000x32 [1] [0] [] [0] [] 1 ![1, 32]
  scatter_S100000x32_S2500000x1_S2500000x32_1_0_0_1_wf : ScatterDims.WF S100000x32 S2500000x1 S2500000x32 [1] [0] [0] 1
  dot_S100000x32_S32x16_S100000x16_1_0_0_1_n_n_wf : DotDims.WF S100000x32 S32x16 S100000x16 [1] [0] [0] [1] [] []
  gather_S100000x16_S2500000x1_S2500000x16_1_0_n_n_0_1_116_wf : GatherDims.WF S100000x16 S2500000x1 S2500000x16 [1] [0] [] [0] [] 1 ![1, 16]
  scatter_S100000x16_S2500000x1_S2500000x16_1_0_0_1_wf : ScatterDims.WF S100000x16 S2500000x1 S2500000x16 [1] [0] [0] 1

variable [Facts₀]

def dot_S100000x10_S10x32_S100000x32_1_0_0_1_n_n : DotDims S100000x10 S10x32 S100000x32 where
  lhsContracting := [1]
  rhsContracting := [0]
  lhsNonContracting := [0]
  rhsNonContracting := [1]
  lhsBatch := []
  rhsBatch := []
  wf := dot_S100000x10_S10x32_S100000x32_1_0_0_1_n_n_wf
def scatter_S100000_S2500000x1_S2500000_n_0_0_1 : ScatterDims S100000 S2500000x1 S2500000 where
  updateWindowDims := []
  insertedWindowDims := [0]
  scatterDimsToOperandDims := [0]
  indexVectorDim := 1
  wf := scatter_S100000_S2500000x1_S2500000_n_0_0_1_wf
def gather_S100000_S2500000x1_S2500000_n_0_n_n_0_1_1 : GatherDims S100000 S2500000x1 S2500000 where
  offsetDims := []
  collapsedSliceDims := [0]
  operandBatchingDims := []
  startIndicesBatchingDims := []
  startIndexMap := [0]
  indexVectorDim := 1
  sliceSizes := ![1]
  wf := gather_S100000_S2500000x1_S2500000_n_0_n_n_0_1_1_wf
def gather_S100000x32_S2500000x1_S2500000x32_1_0_n_n_0_1_132 : GatherDims S100000x32 S2500000x1 S2500000x32 where
  offsetDims := [1]
  collapsedSliceDims := [0]
  operandBatchingDims := []
  startIndicesBatchingDims := []
  startIndexMap := [0]
  indexVectorDim := 1
  sliceSizes := ![1, 32]
  wf := gather_S100000x32_S2500000x1_S2500000x32_1_0_n_n_0_1_132_wf
def scatter_S100000x32_S2500000x1_S2500000x32_1_0_0_1 : ScatterDims S100000x32 S2500000x1 S2500000x32 where
  updateWindowDims := [1]
  insertedWindowDims := [0]
  scatterDimsToOperandDims := [0]
  indexVectorDim := 1
  wf := scatter_S100000x32_S2500000x1_S2500000x32_1_0_0_1_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf
def gather_S100000x16_S2500000x1_S2500000x16_1_0_n_n_0_1_116 : GatherDims S100000x16 S2500000x1 S2500000x16 where
  offsetDims := [1]
  collapsedSliceDims := [0]
  operandBatchingDims := []
  startIndicesBatchingDims := []
  startIndexMap := [0]
  indexVectorDim := 1
  sliceSizes := ![1, 16]
  wf := gather_S100000x16_S2500000x1_S2500000x16_1_0_n_n_0_1_116_wf
def scatter_S100000x16_S2500000x1_S2500000x16_1_0_0_1 : ScatterDims S100000x16 S2500000x1 S2500000x16 where
  updateWindowDims := [1]
  insertedWindowDims := [0]
  scatterDimsToOperandDims := [0]
  indexVectorDim := 1
  wf := scatter_S100000x16_S2500000x1_S2500000x16_1_0_0_1_wf

class Facts : Prop extends Facts₀ where

variable [Facts]
-- ==== Proof.KernelRun.lean ====
/-
  The kernel program's run with its result named.

  The program is four pipelined regions among three stretches of host operations. Its run, from any memory,
  terminates without a fault; the buffers at the end hold the contents `W7`, the fold of the stretches' operations
  and the regions' write-backs over the launch memory. Here the run is stated with the result buffer read at that
  fold (beside the six arguments, which end as launched).
-/
import proofs.«137267_j9749575762658_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    and the arguments as launched. -/
theorem run_value : θ_run defs (onTc (τ := τ) (main (F := F))) ⟨m, fun _ => 0, ρ⟩ (fun r => ∀ c : Dev nD,
      r.2.mem ((c.tc : Thread nD τ).loc main_v81) = W7 m ρ c (Proc.devRef .tc main_v81)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v81 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c)⟩)

end Cert.KernelIdeal.RunValue

end
-- ==== Proof.MatmulBlock.lean ====
/-
  The two matrix-product bodies, read at an index of their output block.

  Each body loads a block of 5000 rows of the left matrix and the whole right matrix, rounds both to bf16 (the
  identity on extended reals) and multiplies them into a zero accumulator. Entry (p, q) of what it stores is therefore
  the plain sum over the contracted axis k of left[p, k] * right[k, q].
-/
import proofs.«137267_j9749575762658_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Blocks

open Cert.KernelIdeal Cert.KernelIdeal.Gen Idealize.ShloMosaic Idealize.ShloMosaic.ValueIdx

/-! ### mmA: the block product at an index -/

theorem mmA_lhs0 (i : S5000x32.Idx) (q : dot_S5000x10_S10x32_S5000x32_1_0_0_1_n_n.contr.Idx) : (dot_S5000x10_S10x32_S5000x32_1_0_0_1_n_n.lhsIdx i q 0).val = (i 0).val := by
  unfold DotDims.lhsIdx
  rw [dif_neg (show ¬(0 : Fin S5000x10.rank) ∈ dot_S5000x10_S10x32_S5000x32_1_0_0_1_n_n.lhsBatch by decide), dif_pos (show (0 : Fin S5000x10.rank) ∈ dot_S5000x10_S10x32_S5000x32_1_0_0_1_n_n.lhsNonContracting by decide)]
  rfl
theorem mmA_lhs1 (i : S5000x32.Idx) (q : dot_S5000x10_S10x32_S5000x32_1_0_0_1_n_n.contr.Idx) : (dot_S5000x10_S10x32_S5000x32_1_0_0_1_n_n.lhsIdx i q 1).val = (q ⟨0, by decide⟩).val :=
  dot_S5000x10_S10x32_S5000x32_1_0_0_1_n_n.lhsIdx_val_of_single rfl i q
theorem mmA_rhs0 (i : S5000x32.Idx) (q : dot_S5000x10_S10x32_S5000x32_1_0_0_1_n_n.contr.Idx) : (dot_S5000x10_S10x32_S5000x32_1_0_0_1_n_n.rhsIdx i q 0).val = (q ⟨0, by decide⟩).val :=
  dot_S5000x10_S10x32_S5000x32_1_0_0_1_n_n.rhsIdx_val_of_single rfl i q
theorem mmA_rhs1 (i : S5000x32.Idx) (q : dot_S5000x10_S10x32_S5000x32_1_0_0_1_n_n.contr.Idx) : (dot_S5000x10_S10x32_S5000x32_1_0_0_1_n_n.rhsIdx i q 1).val = (i 1).val := by
  unfold DotDims.rhsIdx
  rw [dif_neg (show ¬(1 : Fin S10x32.rank) ∈ dot_S5000x10_S10x32_S5000x32_1_0_0_1_n_n.rhsBatch by decide), dif_pos (show (1 : Fin S10x32.rank) ∈ dot_S5000x10_S10x32_S5000x32_1_0_0_1_n_n.rhsNonContracting by decide)]
  rfl

/-- Entry (p, q) of the block product is the sum over the contracted axis of row p of the left block times column q
    of the right block: the accumulator is zero and the change of float format is the identity on extended reals. -/
theorem mmA_apply (x0 : Vec Ideal S5000x10 .f32) (x1 : Vec Ideal S10x32 .f32) (p : Fin 5000) (q : Fin 32) :
    k0_pay1 (F := Ideal) x0 x1 (ix2 p q) = ∑ k : Fin 10, x0 (ix2 p k) * x1 (ix2 k q) := by
  unfold k0_pay1
  refine (Ideal.matmul_constant_zero_apply dot_S5000x10_S10x32_S5000x32_1_0_0_1_n_n none _ _ (ix2 p q)).trans ?_
  rw [← Equiv.sum_comp (ValueIdx.contrEquiv1 dot_S5000x10_S10x32_S5000x32_1_0_0_1_n_n 10 rfl rfl).symm]
  refine Finset.sum_congr rfl fun k _ => ?_
  have hk := ValueIdx.contrEquiv1_symm_val dot_S5000x10_S10x32_S5000x32_1_0_0_1_n_n 10 rfl rfl k
  have el : dot_S5000x10_S10x32_S5000x32_1_0_0_1_n_n.lhsIdx (ix2 p q) ((ValueIdx.contrEquiv1 dot_S5000x10_S10x32_S5000x32_1_0_0_1_n_n 10 rfl rfl).symm k) = ix2 p k := funext fun a => Fin.ext (by
    match a with
    | ⟨0, _⟩ => exact mmA_lhs0 _ _
    | ⟨1, _⟩ => exact (mmA_lhs1 _ _).trans hk)
  have er : dot_S5000x10_S10x32_S5000x32_1_0_0_1_n_n.rhsIdx (ix2 p q) ((ValueIdx.contrEquiv1 dot_S5000x10_S10x32_S5000x32_1_0_0_1_n_n 10 rfl rfl).symm k) = ix2 k q := funext fun a => Fin.ext (by
    match a with
    | ⟨0, _⟩ => exact (mmA_rhs0 _ _).trans hk
    | ⟨1, _⟩ => exact mmA_rhs1 _ _)
  rw [el, er]
  rfl

/-! ### mmB: the block product at an index -/

theorem mmB_lhs0 (i : S5000x16.Idx) (q : dot_S5000x32_S32x16_S5000x16_1_0_0_1_n_n.contr.Idx) : (dot_S5000x32_S32x16_S5000x16_1_0_0_1_n_n.lhsIdx i q 0).val = (i 0).val := by
  unfold DotDims.lhsIdx
  rw [dif_neg (show ¬(0 : Fin S5000x32.rank) ∈ dot_S5000x32_S32x16_S5000x16_1_0_0_1_n_n.lhsBatch by decide), dif_pos (show (0 : Fin S5000x32.rank) ∈ dot_S5000x32_S32x16_S5000x16_1_0_0_1_n_n.lhsNonContracting by decide)]
  rfl
theorem mmB_lhs1 (i : S5000x16.Idx) (q : dot_S5000x32_S32x16_S5000x16_1_0_0_1_n_n.contr.Idx) : (dot_S5000x32_S32x16_S5000x16_1_0_0_1_n_n.lhsIdx i q 1).val = (q ⟨0, by decide⟩).val :=
  dot_S5000x32_S32x16_S5000x16_1_0_0_1_n_n.lhsIdx_val_of_single rfl i q
theorem mmB_rhs0 (i : S5000x16.Idx) (q : dot_S5000x32_S32x16_S5000x16_1_0_0_1_n_n.contr.Idx) : (dot_S5000x32_S32x16_S5000x16_1_0_0_1_n_n.rhsIdx i q 0).val = (q ⟨0, by decide⟩).val :=
  dot_S5000x32_S32x16_S5000x16_1_0_0_1_n_n.rhsIdx_val_of_single rfl i q
theorem mmB_rhs1 (i : S5000x16.Idx) (q : dot_S5000x32_S32x16_S5000x16_1_0_0_1_n_n.contr.Idx) : (dot_S5000x32_S32x16_S5000x16_1_0_0_1_n_n.rhsIdx i q 1).val = (i 1).val := by
  unfold DotDims.rhsIdx
  rw [dif_neg (show ¬(1 : Fin S32x16.rank) ∈ dot_S5000x32_S32x16_S5000x16_1_0_0_1_n_n.rhsBatch by decide), dif_pos (show (1 : Fin S32x16.rank) ∈ dot_S5000x32_S32x16_S5000x16_1_0_0_1_n_n.rhsNonContracting by decide)]
  rfl

/-- Entry (p, q) of the block product is the sum over the contracted axis of row p of the left block times column q
    of the right block: the accumulator is zero and the change of float format is the identity on extended reals. -/
theorem mmB_apply (x0 : Vec Ideal S5000x32 .f32) (x1 : Vec Ideal S32x16 .f32) (p : Fin 5000) (q : Fin 16) :
    k2_pay1 (F := Ideal) x0 x1 (ix2 p q) = ∑ k : Fin 32, x0 (ix2 p k) * x1 (ix2 k q) := by
  unfold k2_pay1
  simp only [shapeCast_self]
  refine (Ideal.matmul_constant_zero_apply dot_S5000x32_S32x16_S5000x16_1_0_0_1_n_n none _ _ (ix2 p q)).trans ?_
  rw [← Equiv.sum_comp (ValueIdx.contrEquiv1 dot_S5000x32_S32x16_S5000x16_1_0_0_1_n_n 32 rfl rfl).symm]
  refine Finset.sum_congr rfl fun k _ => ?_
  have hk := ValueIdx.contrEquiv1_symm_val dot_S5000x32_S32x16_S5000x16_1_0_0_1_n_n 32 rfl rfl k
  have el : dot_S5000x32_S32x16_S5000x16_1_0_0_1_n_n.lhsIdx (ix2 p q) ((ValueIdx.contrEquiv1 dot_S5000x32_S32x16_S5000x16_1_0_0_1_n_n 32 rfl rfl).symm k) = ix2 p k := funext fun a => Fin.ext (by
    match a with
    | ⟨0, _⟩ => exact mmB_lhs0 _ _
    | ⟨1, _⟩ => exact (mmB_lhs1 _ _).trans hk)
  have er : dot_S5000x32_S32x16_S5000x16_1_0_0_1_n_n.rhsIdx (ix2 p q) ((ValueIdx.contrEquiv1 dot_S5000x32_S32x16_S5000x16_1_0_0_1_n_n 32 rfl rfl).symm k) = ix2 k q := funext fun a => Fin.ext (by
    match a with
    | ⟨0, _⟩ => exact (mmB_rhs0 _ _).trans hk
    | ⟨1, _⟩ => exact mmB_rhs1 _ _)
  rw [el, er]
  rfl

/-- The same at an arbitrary index of the block. -/
theorem mmA_at (x0 : Vec Ideal S5000x10 .f32) (x1 : Vec Ideal S10x32 .f32) (j : S5000x32.Idx) :
    k0_pay1 (F := Ideal) x0 x1 j = ∑ k : Fin 10, x0 (ix2 (j 0) k) * x1 (ix2 k (j 1)) := by
  obtain ⟨p, q, rfl⟩ : ∃ (p : Fin 5000) (q : Fin 32), j = ix2 p q := ⟨j 0, j 1, eq_ix2 j⟩
  exact mmA_apply x0 x1 p q

/-- The same at an arbitrary index of the block. -/
theorem mmB_at (x0 : Vec Ideal S5000x32 .f32) (x1 : Vec Ideal S32x16 .f32) (j : S5000x16.Idx) :
    k2_pay1 (F := Ideal) x0 x1 j = ∑ k : Fin 32, x0 (ix2 (j 0) k) * x1 (ix2 k (j 1)) := by
  obtain ⟨p, q, rfl⟩ : ∃ (p : Fin 5000) (q : Fin 16), j = ix2 p q := ⟨j 0, j 1, eq_ix2 j⟩
  exact mmB_apply x0 x1 p q

end Cert.KernelIdeal.Blocks

end
-- ==== Proof.Spec.lean ====
/-
  The mathematics of one graph-convolution layer's two dense stages, index by index on the extended reals.

  * `transform x w` is the feature transform: entry (r, q) is the sum over the contracted axis j of
    x[r, j] * w[j, q].
  * `combine a h d b` is the layer's output from the aggregated neighbour messages a, the transformed
    features h, the column d of per-node normalisation factors and the bias row b: entry (r, q) is
    a[r, q] + h[r, q] * d[r]^2 + b[q] — the neighbours' part, the node's own (self-loop) part and the bias.
  * `combineClamped` is the same followed by the maximum with zero (the first layer's activation).

  The zero is kept as the f32 word 0x00000000 read on the extended reals; it is the same word wherever it occurs
  and is never evaluated.
-/
import Idealize.ShloMosaic.PureOps.Ideal
import Idealize.ShloMosaic.Lib.ValueIdx

noncomputable section

namespace Cert.Gcn

open Idealize.ShloMosaic Idealize.ShloMosaic.ValueIdx

/-- Rows of `x` times columns of `w`. -/
def transform {n k m : ℕ} (x : Vec Ideal ⟨2, ![n, k]⟩ .f32) (w : Vec Ideal ⟨2, ![k, m]⟩ .f32) : Vec Ideal ⟨2, ![n, m]⟩ .f32 :=
  fun i => ∑ j : Fin k, x (ix2 (i 0) j) * w (ix2 j (i 1))

/-- Neighbours' messages + the node's own feature scaled by its squared normalisation + the bias. -/
def combine {n m : ℕ} (a h : Vec Ideal ⟨2, ![n, m]⟩ .f32) (d : Vec Ideal ⟨2, ![n, 1]⟩ .f32) (b : Vec Ideal ⟨2, ![1, m]⟩ .f32) :
    Vec Ideal ⟨2, ![n, m]⟩ .f32 :=
  fun i => a i + h i * (d (ix2 (i 0) 0) * d (ix2 (i 0) 0)) + b (ix2 0 (i 1))

/-- The same, clamped below at zero. -/
def combineClamped {n m : ℕ} (a h : Vec Ideal ⟨2, ![n, m]⟩ .f32) (d : Vec Ideal ⟨2, ![n, 1]⟩ .f32) (b : Vec Ideal ⟨2, ![1, m]⟩ .f32) :
    Vec Ideal ⟨2, ![n, m]⟩ .f32 :=
  fun i => max (combine a h d b i) (Ideal.ofBits .f32 0x00000000#32)

end Cert.Gcn

end
-- ==== Proof.Region0.lean ====
/-
  Region 0 (a feature transform): what its output array holds when the region ends.

  The grid has 20 points; point t reads rows 5000 t … 5000 t + 4999 of the left matrix and the whole right matrix and
  writes the same rows of the output. The blocks tile the output, so the whole array ends as rows of the left
  matrix times columns of the right one. The statement is at an arbitrary contents `V` of the buffers at the
  region's entry.
-/
import proofs.«137267_j9749575762658_1_alg».proof.Proof.Gen.KernelIdeal.Frame
import proofs.«137267_j9749575762658_1_alg».proof.Proof.MatmulBlock
import proofs.«137267_j9749575762658_1_alg».proof.Proof.Spec
import Idealize.ShloMosaic.Lib.Pipeline.Value

set_option maxRecDepth 16384

noncomputable section

namespace Cert.KernelIdeal.Region0

open Cert.KernelIdeal Cert.KernelIdeal.Gen Cert.Gcn Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the grid: the left operand and the output move down one block of rows per point, the
    right operand stays. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point `t` writes back is its block of rows of the product of the two arrays as the region finds them. -/
theorem written_block (c : Dev nD) (t : Fin cfg0.N) :
    (dat0 V c).flushed 2 t = ((cfg0.win 2).blk t).view.read (Elt Ideal) (transform (V c main_arg0) (V c main_arg2)) := by
  show (cfg0.win 2).cut (grid0.coords t) ((dat0 V c).after 2 t) = _
  rw [after0_2]
  unfold out0_2
  rw [View.canon_unit_zero offsets_zero]
  simp only [View.ld_unit_zero (S := S5000x10) offsets_zero, View.ld_unit_zero (S := S10x32) offsets_zero]
  obtain ⟨e0, e1, e2, e3, e4, e5⟩ := block_indices t
  funext j
  show k0_pay1 (iblk0 V c 0 t) (iblk0 V c 1 t) j = transform (V c main_arg0) (V c main_arg2) (((cfg0.win 2).blk t).view.emb j)
  refine (Blocks.mmA_at (iblk0 V c 0 t) (iblk0 V c 1 t) j).trans ?_
  unfold transform
  refine Finset.sum_congr rfl fun k _ => ?_
  have h0 : ((cfg0.win 0).blk t).view.emb (ix2 (j 0) k) = ix2 ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 10 + 1 * k.val = k.val; omega
  have h1 : ((cfg0.win 1).blk t).view.emb (ix2 k (j 1)) = ix2 k ((((cfg0.win 2).blk t).view.emb j) 1) := by
    funext a; apply Fin.ext
    match a with
    | ⟨0, _⟩ => show win0_1.index t (0 : Fin 2) * 10 + 1 * k.val = k.val; omega
    | ⟨1, _⟩ => show win0_1.index t (1 : Fin 2) * 32 + 1 * (j 1).val = win0_2.index t (1 : Fin 2) * 32 + 1 * (j 1).val; omega
  have a0 : iblk0 V c 0 t (ix2 (j 0) k) = V c main_arg0 (ix2 ((((cfg0.win 2).blk t).view.emb j) 0) k) := congrArg (V c main_arg0) h0
  have a1 : iblk0 V c 1 t (ix2 k (j 1)) = V c main_arg2 (ix2 k ((((cfg0.win 2).blk t).view.emb j) 1)) := congrArg (V c main_arg2) h1
  rw [a0, a1]

/-- An index of the output array is in point `t`'s block iff each coordinate is in the block's range on its axis. -/
theorem mem_block (t : Fin cfg0.N) (i : S100000x32.Idx) :
    i ∈ ((cfg0.win 2).blk t).view.set ↔ ∀ a : Fin 2, win0_2.index t a * S5000x32.size a ≤ (i a).val ∧ (i a).val < win0_2.index t a * S5000x32.size a + S5000x32.size a := by
  show i ∈ ((View.whole main_v4).slice (win0_2.rect t)).set ↔ _
  rw [View.set_slice_whole, Rect.mem_set_unit]
  exact Iff.rfl

/-- Row r of the output is written by point r / 5000. -/
theorem covered (i : S100000x32.Idx) :
    ∃ t : Fin cfg0.N, (cfg0.win 2).flush t = true ∧ i ∈ ((cfg0.win 2).blk t).view.set := by
  have hi0 : (i 0).val < 100000 := (i 0).isLt
  have hi1 : (i 1).val < 32 := (i 1).isLt
  have hN : cfg0.N = 20 := N_0
  let t : Fin cfg0.N := ⟨(i 0).val / 5000, by rw [hN]; omega⟩
  obtain ⟨e0, e1, e2, e3, e4, e5⟩ := block_indices t
  have ht : t.val = (i 0).val / 5000 := rfl
  refine ⟨t, flush0_2 t, ?_⟩
  rw [mem_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 32 ≤ (i 1).val ∧ (i 1).val < win0_2.index t (1 : Fin 2) * 32 + 32; omega

/-- The output array when the region ends. -/
theorem final (c : Dev nD) : (dat0 V c).arrAt 2 cfg0.N = transform (V c main_arg0) (V c main_arg2) :=
  (dat0 V c).arrAt_eq_of_cover 2 _ (fun t _ => written_block V c t) covered

end Cert.KernelIdeal.Region0

end
-- ==== Proof.FinalizeBlock.lean ====
/-
  The two combining bodies (aggregate + self-loop + bias, the first followed by a clamp at zero), read at an index
  of their output block.

  A body loads the block's column of normalisation factors d (5000 x 1), the aggregated messages a and the
  transformed features h (5000 x W each) and the bias row b (1 x W). It squares d, spreads the square along each
  row, spreads b down each column, and stores a + h * d^2 + b (the first layer: the maximum of that and zero).
-/
import proofs.«137267_j9749575762658_1_alg».proof.Proof.Gen.KernelIdeal.Skeleton
import Idealize.ShloMosaic.Lib.ValueIdx
import Idealize.ShloMosaic.Lib.ValueLayout
import Idealize.ShloMosaic.Lib.Pipeline.Value

noncomputable section

namespace Cert.KernelIdeal.Blocks

open Cert.KernelIdeal Cert.KernelIdeal.Gen Idealize.ShloMosaic Idealize.ShloMosaic.ValueIdx

/-- An [a, 1] column broadcast to [a, b] reads, at (p, c), the column's entry p. -/
theorem column_broadcast_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Entry (p, q) of what the first layer's combining body stores: the aggregated message plus the node's own
    transformed feature scaled by the square of its normalisation factor, plus the bias, clamped below at zero. -/
theorem finA_apply (d : Vec Ideal S5000x1 .f32) (a h : Vec Ideal S5000x32 .f32) (b : Vec Ideal S1x32 .f32) (p : Fin 5000) (q : Fin 32) :
    k1_pay1 (F := Ideal) d a h b (ix2 p q)
      = max (a (ix2 p q) + h (ix2 p q) * (d (ix2 p 0) * d (ix2 p 0)) + b (ix2 0 q)) (Ideal.ofBits .f32 0x00000000#32) := by
  unfold k1_pay1
  simp only [shapeCast_self, maximumf_apply, addf_apply, mulf_apply, column_broadcast_apply, broadcastTo_1b_ab_apply, broadcast_apply]
  rfl

/-- Entry (p, q) of what the second layer's combining body stores: the aggregated message plus the node's own
    transformed feature scaled by the square of its normalisation factor, plus the bias. -/
theorem finB_apply (d : Vec Ideal S5000x1 .f32) (a h : Vec Ideal S5000x16 .f32) (b : Vec Ideal S1x16 .f32) (p : Fin 5000) (q : Fin 16) :
    k3_pay1 (F := Ideal) d a h b (ix2 p q)
      = a (ix2 p q) + h (ix2 p q) * (d (ix2 p 0) * d (ix2 p 0)) + b (ix2 0 q) := by
  unfold k3_pay1
  simp only [shapeCast_self, maximumf_apply, addf_apply, mulf_apply, column_broadcast_apply, broadcastTo_1b_ab_apply, broadcast_apply]

/-- The same at an arbitrary index of the block. -/
theorem finA_at (d : Vec Ideal S5000x1 .f32) (a h : Vec Ideal S5000x32 .f32) (b : Vec Ideal S1x32 .f32) (j : S5000x32.Idx) :
    k1_pay1 (F := Ideal) d a h b j
      = max (a j + h j * (d (ix2 (j 0) 0) * d (ix2 (j 0) 0)) + b (ix2 0 (j 1))) (Ideal.ofBits .f32 0x00000000#32) := by
  obtain ⟨p, q, rfl⟩ : ∃ (p : Fin 5000) (q : Fin 32), j = ix2 p q := ⟨j 0, j 1, eq_ix2 j⟩
  exact finA_apply d a h b p q

/-- The same at an arbitrary index of the block. -/
theorem finB_at (d : Vec Ideal S5000x1 .f32) (a h : Vec Ideal S5000x16 .f32) (b : Vec Ideal S1x16 .f32) (j : S5000x16.Idx) :
    k3_pay1 (F := Ideal) d a h b j = a j + h j * (d (ix2 (j 0) 0) * d (ix2 (j 0) 0)) + b (ix2 0 (j 1)) := by
  obtain ⟨p, q, rfl⟩ : ∃ (p : Fin 5000) (q : Fin 16), j = ix2 p q := ⟨j 0, j 1, eq_ix2 j⟩
  exact finB_apply d a h b p q

end Cert.KernelIdeal.Blocks

end
-- ==== Proof.Region1.lean ====
/-
  Region 1 (a layer's combining stage): what its output array holds when the region ends.

  The grid has 20 points; point t reads rows 5000 t … 5000 t + 4999 of the aggregated messages, of the transformed
  features and of the column of normalisation factors, and the whole bias row, and writes the same rows of the
  output. The blocks tile the output, so the whole array ends as messages + features * factor^2 + bias, clamped at zero,
  entry by entry. The statement is at an arbitrary contents `V` of the buffers at the region's entry.
-/
import proofs.«137267_j9749575762658_1_alg».proof.Proof.Gen.KernelIdeal.Frame
import proofs.«137267_j9749575762658_1_alg».proof.Proof.FinalizeBlock
import proofs.«137267_j9749575762658_1_alg».proof.Proof.Spec
import Idealize.ShloMosaic.Lib.Pipeline.Value

set_option maxRecDepth 16384

noncomputable section

namespace Cert.KernelIdeal.Region1

open Cert.KernelIdeal Cert.KernelIdeal.Gen Cert.Gcn Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the grid: the three row-blocked operands and the output move down one block of rows
    per point, the bias row stays. -/
theorem block_indices : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

set_option maxHeartbeats 1600000 in
/-- What point `t` writes back is its block of rows of the combination of the four arrays as the region finds them. -/
theorem written_block (c : Dev nD) (t : Fin cfg1.N) :
    (dat1 V c).flushed 4 t = ((cfg1.win 4).blk t).view.read (Elt Ideal)
      (combineClamped (V c main_v39) (V c main_v4) (V c main_v40) (V c main_v41)) := by
  show (cfg1.win 4).cut (grid1.coords t) ((dat1 V c).after 4 t) = _
  rw [after1_4]
  unfold out1_4
  rw [View.canon_unit_zero offsets_zero]
  simp only [View.ld_unit_zero (S := S5000x32) offsets_zero, View.ld_unit_zero (S := S5000x1) offsets_zero, View.ld_unit_zero (S := S1x32) offsets_zero]
  obtain ⟨e0, e1, e2, e3, e4, e5, e6, e7, e8, e9⟩ := block_indices t
  funext j
  show k1_pay1 (iblk1 V c 2 t) (iblk1 V c 0 t) (iblk1 V c 1 t) (iblk1 V c 3 t) j
    = combineClamped (V c main_v39) (V c main_v4) (V c main_v40) (V c main_v41) (((cfg1.win 4).blk t).view.emb j)
  refine (Blocks.finA_at (iblk1 V c 2 t) (iblk1 V c 0 t) (iblk1 V c 1 t) (iblk1 V c 3 t) j).trans ?_
  have h0 : ((cfg1.win 0).blk t).view.emb j = ((cfg1.win 4).blk t).view.emb j := by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 32 + 1 * (j 1).val = win1_4.index t (1 : Fin 2) * 32 + 1 * (j 1).val; omega
  have h1 : ((cfg1.win 1).blk t).view.emb j = ((cfg1.win 4).blk t).view.emb j := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 32 + 1 * (j 1).val = win1_4.index t (1 : Fin 2) * 32 + 1 * (j 1).val; omega
  have h2 : ((cfg1.win 2).blk t).view.emb (ix2 (j 0) (0 : Fin 1)) = ix2 ((((cfg1.win 4).blk t).view.emb j) 0) (0 : Fin 1) := by
    funext a; apply Fin.ext
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 1 + 1 * 0 = 0; omega
  have h3 : ((cfg1.win 3).blk t).view.emb (ix2 (0 : Fin 1) (j 1)) = ix2 (0 : Fin 1) ((((cfg1.win 4).blk t).view.emb j) 1) := by
    funext a; apply Fin.ext
    match a with
    | ⟨0, _⟩ => show win1_3.index t (0 : Fin 2) * 1 + 1 * 0 = 0; omega
    | ⟨1, _⟩ => show win1_3.index t (1 : Fin 2) * 32 + 1 * (j 1).val = win1_4.index t (1 : Fin 2) * 32 + 1 * (j 1).val; omega
  have a0 : iblk1 V c 0 t j = V c main_v39 (((cfg1.win 4).blk t).view.emb j) := congrArg (V c main_v39) h0
  have a1 : iblk1 V c 1 t j = V c main_v4 (((cfg1.win 4).blk t).view.emb j) := congrArg (V c main_v4) h1
  have a2 : iblk1 V c 2 t (ix2 (j 0) (0 : Fin 1)) = V c main_v40 (ix2 ((((cfg1.win 4).blk t).view.emb j) 0) (0 : Fin 1)) := congrArg (V c main_v40) h2
  have a3 : iblk1 V c 3 t (ix2 (0 : Fin 1) (j 1)) = V c main_v41 (ix2 (0 : Fin 1) ((((cfg1.win 4).blk t).view.emb j) 1)) := congrArg (V c main_v41) h3
  rw [a0, a1, a2, a3]
  rfl

/-- An index of the output array is in point `t`'s block iff each coordinate is in the block's range on its axis. -/
theorem mem_block (t : Fin cfg1.N) (i : S100000x32.Idx) :
    i ∈ ((cfg1.win 4).blk t).view.set ↔ ∀ a : Fin 2, win1_4.index t a * S5000x32.size a ≤ (i a).val ∧ (i a).val < win1_4.index t a * S5000x32.size a + S5000x32.size a := by
  show i ∈ ((View.whole main_v42).slice (win1_4.rect t)).set ↔ _
  rw [View.set_slice_whole, Rect.mem_set_unit]
  exact Iff.rfl

/-- Row r of the output is written by point r / 5000. -/
theorem covered (i : S100000x32.Idx) :
    ∃ t : Fin cfg1.N, (cfg1.win 4).flush t = true ∧ i ∈ ((cfg1.win 4).blk t).view.set := by
  have hi0 : (i 0).val < 100000 := (i 0).isLt
  have hi1 : (i 1).val < 32 := (i 1).isLt
  have hN : cfg1.N = 20 := N_1
  let t : Fin cfg1.N := ⟨(i 0).val / 5000, by rw [hN]; omega⟩
  obtain ⟨e0, e1, e2, e3, e4, e5, e6, e7, e8, e9⟩ := block_indices t
  have ht : t.val = (i 0).val / 5000 := rfl
  refine ⟨t, flush1_4 t, ?_⟩
  rw [mem_block]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 32 ≤ (i 1).val ∧ (i 1).val < win1_4.index t (1 : Fin 2) * 32 + 32; omega

/-- The output array when the region ends. -/
theorem final (c : Dev nD) : (dat1 V c).arrAt 4 cfg1.N = combineClamped (V c main_v39) (V c main_v4) (V c main_v40) (V c main_v41) :=
  (dat1 V c).arrAt_eq_of_cover 4 _ (fun t _ => written_block V c t) covered

end Cert.KernelIdeal.Region1

end
-- ==== Proof.Region2.lean ====
/-
  Region 2 (a feature transform): what its output array holds when the region ends.

  The grid has 20 points; point t reads rows 5000 t … 5000 t + 4999 of the left matrix and the whole right matrix and
  writes the same rows of the output. The blocks tile the output, so the whole array ends as rows of the left
  matrix times columns of the right one. The statement is at an arbitrary contents `V` of the buffers at the
  region's entry.
-/
import proofs.«137267_j9749575762658_1_alg».proof.Proof.Gen.KernelIdeal.Frame
import proofs.«137267_j9749575762658_1_alg».proof.Proof.MatmulBlock
import proofs.«137267_j9749575762658_1_alg».proof.Proof.Spec
import Idealize.ShloMosaic.Lib.Pipeline.Value

set_option maxRecDepth 16384

noncomputable section

namespace Cert.KernelIdeal.Region2

open Cert.KernelIdeal Cert.KernelIdeal.Gen Cert.Gcn Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the grid: the left operand and the output move down one block of rows per point, the
    right operand stays. -/
theorem block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- What point `t` writes back is its block of rows of the product of the two arrays as the region finds them. -/
theorem written_block (c : Dev nD) (t : Fin cfg2.N) :
    (dat2 V c).flushed 2 t = ((cfg2.win 2).blk t).view.read (Elt Ideal) (transform (V c main_v42) (V c main_arg4)) := by
  show (cfg2.win 2).cut (grid2.coords t) ((dat2 V c).after 2 t) = _
  rw [after2_2]
  unfold out2_2
  rw [View.canon_unit_zero offsets_zero]
  simp only [View.ld_unit_zero (S := S5000x32) offsets_zero, View.ld_unit_zero (S := S32x16) offsets_zero]
  obtain ⟨e0, e1, e2, e3, e4, e5⟩ := block_indices t
  funext j
  show k2_pay1 (iblk2 V c 0 t) (iblk2 V c 1 t) j = transform (V c main_v42) (V c main_arg4) (((cfg2.win 2).blk t).view.emb j)
  refine (Blocks.mmB_at (iblk2 V c 0 t) (iblk2 V c 1 t) j).trans ?_
  unfold transform
  refine Finset.sum_congr rfl fun k _ => ?_
  have h0 : ((cfg2.win 0).blk t).view.emb (ix2 (j 0) k) = ix2 ((((cfg2.win 2).blk t).view.emb j) 0) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 32 + 1 * k.val = k.val; omega
  have h1 : ((cfg2.win 1).blk t).view.emb (ix2 k (j 1)) = ix2 k ((((cfg2.win 2).blk t).view.emb j) 1) := by
    funext a; apply Fin.ext
    match a with
    | ⟨0, _⟩ => show win2_1.index t (0 : Fin 2) * 32 + 1 * k.val = k.val; omega
    | ⟨1, _⟩ => show win2_1.index t (1 : Fin 2) * 16 + 1 * (j 1).val = win2_2.index t (1 : Fin 2) * 16 + 1 * (j 1).val; omega
  have a0 : iblk2 V c 0 t (ix2 (j 0) k) = V c main_v42 (ix2 ((((cfg2.win 2).blk t).view.emb j) 0) k) := congrArg (V c main_v42) h0
  have a1 : iblk2 V c 1 t (ix2 k (j 1)) = V c main_arg4 (ix2 k ((((cfg2.win 2).blk t).view.emb j) 1)) := congrArg (V c main_arg4) h1
  rw [a0, a1]

/-- An index of the output array is in point `t`'s block iff each coordinate is in the block's range on its axis. -/
theorem mem_block (t : Fin cfg2.N) (i : S100000x16.Idx) :
    i ∈ ((cfg2.win 2).blk t).view.set ↔ ∀ a : Fin 2, win2_2.index t a * S5000x16.size a ≤ (i a).val ∧ (i a).val < win2_2.index t a * S5000x16.size a + S5000x16.size a := by
  show i ∈ ((View.whole main_v43).slice (win2_2.rect t)).set ↔ _
  rw [View.set_slice_whole, Rect.mem_set_unit]
  exact Iff.rfl

/-- Row r of the output is written by point r / 5000. -/
theorem covered (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  have hN : cfg2.N = 20 := N_2
  let t : Fin cfg2.N := ⟨(i 0).val / 5000, by rw [hN]; omega⟩
  obtain ⟨e0, e1, e2, e3, e4, e5⟩ := block_indices t
  have ht : t.val = (i 0).val / 5000 := rfl
  refine ⟨t, flush2_2 t, ?_⟩
  rw [mem_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 16 ≤ (i 1).val ∧ (i 1).val < win2_2.index t (1 : Fin 2) * 16 + 16; omega

/-- The output array when the region ends. -/
theorem final (c : Dev nD) : (dat2 V c).arrAt 2 cfg2.N = transform (V c main_v42) (V c main_arg4) :=
  (dat2 V c).arrAt_eq_of_cover 2 _ (fun t _ => written_block V c t) covered

end Cert.KernelIdeal.Region2

end
-- ==== Proof.Region3.lean ====
/-
  Region 3 (a layer's combining stage): what its output array holds when the region ends.

  The grid has 20 points; point t reads rows 5000 t … 5000 t + 4999 of the aggregated messages, of the transformed
  features and of the column of normalisation factors, and the whole bias row, and writes the same rows of the
  output. The blocks tile the output, so the whole array ends as messages + features * factor^2 + bias,
  entry by entry. The statement is at an arbitrary contents `V` of the buffers at the region's entry.
-/
import proofs.«137267_j9749575762658_1_alg».proof.Proof.Gen.KernelIdeal.Frame
import proofs.«137267_j9749575762658_1_alg».proof.Proof.FinalizeBlock
import proofs.«137267_j9749575762658_1_alg».proof.Proof.Spec
import Idealize.ShloMosaic.Lib.Pipeline.Value

set_option maxRecDepth 16384

noncomputable section

namespace Cert.KernelIdeal.Region3

open Cert.KernelIdeal Cert.KernelIdeal.Gen Cert.Gcn Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem offsets_zero : (![0, 0] : Fin 2 → Nat) = fun _ => 0 := funext fun a => by fin_cases a <;> rfl

/-- The printed index maps over the grid: the three row-blocked operands and the output move down one block of rows
    per point, the bias row stays. -/
theorem block_indices : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

set_option maxHeartbeats 1600000 in
/-- What point `t` writes back is its block of rows of the combination of the four arrays as the region finds them. -/
theorem written_block (c : Dev nD) (t : Fin cfg3.N) :
    (dat3 V c).flushed 4 t = ((cfg3.win 4).blk t).view.read (Elt Ideal)
      (combine (V c main_v78) (V c main_v43) (V c main_v79) (V c main_v80)) := by
  show (cfg3.win 4).cut (grid3.coords t) ((dat3 V c).after 4 t) = _
  rw [after3_4]
  unfold out3_4
  rw [View.canon_unit_zero offsets_zero]
  simp only [View.ld_unit_zero (S := S5000x16) offsets_zero, View.ld_unit_zero (S := S5000x1) offsets_zero, View.ld_unit_zero (S := S1x16) offsets_zero]
  obtain ⟨e0, e1, e2, e3, e4, e5, e6, e7, e8, e9⟩ := block_indices t
  funext j
  show k3_pay1 (iblk3 V c 2 t) (iblk3 V c 0 t) (iblk3 V c 1 t) (iblk3 V c 3 t) j
    = combine (V c main_v78) (V c main_v43) (V c main_v79) (V c main_v80) (((cfg3.win 4).blk t).view.emb j)
  refine (Blocks.finB_at (iblk3 V c 2 t) (iblk3 V c 0 t) (iblk3 V c 1 t) (iblk3 V c 3 t) j).trans ?_
  have h0 : ((cfg3.win 0).blk t).view.emb j = ((cfg3.win 4).blk t).view.emb j := by
    funext a; apply Fin.ext
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 16 + 1 * (j 1).val = win3_4.index t (1 : Fin 2) * 16 + 1 * (j 1).val; omega
  have h1 : ((cfg3.win 1).blk t).view.emb j = ((cfg3.win 4).blk t).view.emb j := by
    funext a; apply Fin.ext
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 16 + 1 * (j 1).val = win3_4.index t (1 : Fin 2) * 16 + 1 * (j 1).val; omega
  have h2 : ((cfg3.win 2).blk t).view.emb (ix2 (j 0) (0 : Fin 1)) = ix2 ((((cfg3.win 4).blk t).view.emb j) 0) (0 : Fin 1) := by
    funext a; apply Fin.ext
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 1 + 1 * 0 = 0; omega
  have h3 : ((cfg3.win 3).blk t).view.emb (ix2 (0 : Fin 1) (j 1)) = ix2 (0 : Fin 1) ((((cfg3.win 4).blk t).view.emb j) 1) := by
    funext a; apply Fin.ext
    match a with
    | ⟨0, _⟩ => show win3_3.index t (0 : Fin 2) * 1 + 1 * 0 = 0; omega
    | ⟨1, _⟩ => show win3_3.index t (1 : Fin 2) * 16 + 1 * (j 1).val = win3_4.index t (1 : Fin 2) * 16 + 1 * (j 1).val; omega
  have a0 : iblk3 V c 0 t j = V c main_v78 (((cfg3.win 4).blk t).view.emb j) := congrArg (V c main_v78) h0
  have a1 : iblk3 V c 1 t j = V c main_v43 (((cfg3.win 4).blk t).view.emb j) := congrArg (V c main_v43) h1
  have a2 : iblk3 V c 2 t (ix2 (j 0) (0 : Fin 1)) = V c main_v79 (ix2 ((((cfg3.win 4).blk t).view.emb j) 0) (0 : Fin 1)) := congrArg (V c main_v79) h2
  have a3 : iblk3 V c 3 t (ix2 (0 : Fin 1) (j 1)) = V c main_v80 (ix2 (0 : Fin 1) ((((cfg3.win 4).blk t).view.emb j) 1)) := congrArg (V c main_v80) h3
  rw [a0, a1, a2, a3]
  rfl

/-- An index of the output array is in point `t`'s block iff each coordinate is in the block's range on its axis. -/
theorem mem_block (t : Fin cfg3.N) (i : S100000x16.Idx) :
    i ∈ ((cfg3.win 4).blk t).view.set ↔ ∀ a : Fin 2, win3_4.index t a * S5000x16.size a ≤ (i a).val ∧ (i a).val < win3_4.index t a * S5000x16.size a + S5000x16.size a := by
  show i ∈ ((View.whole main_v81).slice (win3_4.rect t)).set ↔ _
  rw [View.set_slice_whole, Rect.mem_set_unit]
  exact Iff.rfl

/-- Row r of the output is written by point r / 5000. -/
theorem covered (i : S100000x16.Idx) :
    ∃ t : Fin cfg3.N, (cfg3.win 4).flush t = true ∧ i ∈ ((cfg3.win 4).blk t).view.set := by
  have hi0 : (i 0).val < 100000 := (i 0).isLt
  have hi1 : (i 1).val < 16 := (i 1).isLt
  have hN : cfg3.N = 20 := N_3
  let t : Fin cfg3.N := ⟨(i 0).val / 5000, by rw [hN]; omega⟩
  obtain ⟨e0, e1, e2, e3, e4, e5, e6, e7, e8, e9⟩ := block_indices t
  have ht : t.val = (i 0).val / 5000 := rfl
  refine ⟨t, flush3_4 t, ?_⟩
  rw [mem_block]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 16 ≤ (i 1).val ∧ (i 1).val < win3_4.index t (1 : Fin 2) * 16 + 16; omega

/-- The output array when the region ends. -/
theorem final (c : Dev nD) : (dat3 V c).arrAt 4 cfg3.N = combine (V c main_v78) (V c main_v43) (V c main_v79) (V c main_v80) :=
  (dat3 V c).arrAt_eq_of_cover 4 _ (fun t _ => written_block V c t) covered

end Cert.KernelIdeal.Region3

end
-- ==== Proof.RefLayers.lean ====
/-
  The reference, layer by layer, as the two dense stages of the specification.

  The reference computes each layer as: a matrix product h = x W on the host; the neighbour aggregation (gathers and
  scatter-adds over the edge list, not opened here); then agg + h * (dinv * dinv)[:, None] + b, and after the first
  layer a maximum with zero. Read at an index, the product is the sum over the contracted axis, the broadcasts of
  dinv * dinv along rows and of b down columns read entry r of dinv twice and entry q of b. So each layer's dense
  stages are `transform` and `combine` (`combineClamped`) of the specification, where the normalisation
  factors enter as the column [N, 1] cast of dinv and the bias as the row [1, W] cast of b.
-/
import proofs.«137267_j9749575762658_1_alg».proof.Proof.Gen.ReferenceIdeal.Read
import proofs.«137267_j9749575762658_1_alg».proof.Proof.Spec
import Idealize.ShloMosaic.Lib.ValueLayout

noncomputable section

namespace Cert.ReferenceIdeal.Layers

open Cert.ReferenceIdeal Cert.ReferenceIdeal.Read Cert.Gcn Idealize.ShloMosaic Idealize.ShloMosaic.ValueIdx

/-- A vector of `a` entries cast to an [a, 1] column reads, at (p, z), the vector's entry p. -/
theorem column_cast_apply {α : Type} {a : ℕ} (x : (⟨1, ![a]⟩ : Shape).Idx → α) (h : (⟨1, ![a]⟩ : Shape).ShapeCasts ⟨2, ![a, 1]⟩)
    (p : Fin a) (z : Fin 1) : shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    omega)

/-- The first layer's host product is the specification's transform of x and W1. -/
theorem transform1_eq (x0 : Vec Ideal S100000x10 .f32) (x2 : Vec Ideal S10x32 .f32) :
    transform x0 x2 = val_main_v4 (F := Ideal) x0 x2 := by
  funext i
  rw [val_main_v4_apply]
  unfold transform
  refine Finset.sum_congr rfl fun k _ => ?_
  have el : lidx_main_v4 i k = ix2 (i 0) k := funext fun a => Fin.ext (by match a with | ⟨0, _⟩ => rfl | ⟨1, _⟩ => rfl)
  have er : ridx_main_v4 i k = ix2 k (i 1) := funext fun a => Fin.ext (by match a with | ⟨0, _⟩ => rfl | ⟨1, _⟩ => rfl)
  rw [el, er]
  rfl

/-- The second layer's host product is the transform of the first layer's output and W2. -/
theorem transform2_eq (x0 : Vec Ideal S100000x10 .f32) (x1 : IVec S2x2500000 32) (x2 : Vec Ideal S10x32 .f32)
    (x3 : Vec Ideal S32 .f32) (x4 : Vec Ideal S32x16 .f32) :
    transform (val_main_v48 (F := Ideal) x0 x1 x2 x3) x4 = val_main_v49 (F := Ideal) x0 x1 x2 x3 x4 := by
  funext i
  rw [val_main_v49_apply]
  unfold transform
  refine Finset.sum_congr rfl fun k _ => ?_
  have el : lidx_main_v49 i k = ix2 (i 0) k := funext fun a => Fin.ext (by match a with | ⟨0, _⟩ => rfl | ⟨1, _⟩ => rfl)
  have er : ridx_main_v49 i k = ix2 k (i 1) := funext fun a => Fin.ext (by match a with | ⟨0, _⟩ => rfl | ⟨1, _⟩ => rfl)
  rw [el, er]
  rfl

/-- The first layer's output: the clamped combination of the aggregated messages, the product, the column of
    normalisation factors and the bias row. -/
theorem layer1_eq (x0 : Vec Ideal S100000x10 .f32) (x1 : IVec S2x2500000 32) (x2 : Vec Ideal S10x32 .f32) (x3 : Vec Ideal S32 .f32)
    (hd : S100000.ShapeCasts S100000x1) (hb : S32.ShapeCasts S1x32) :
    combineClamped (val_main_v39 (F := Ideal) x0 x1 x2) (val_main_v4 (F := Ideal) x0 x2)
        (shapeCast S100000x1 (val_main_v11 (F := Ideal) x1) hd) (shapeCast S1x32 x3 hb)
      = val_main_v48 (F := Ideal) x0 x1 x2 x3 := by
  funext i
  obtain ⟨r, q, rfl⟩ : ∃ (r : Fin 100000) (q : Fin 32), i = ix2 r q := ⟨i 0, i 1, eq_ix2 i⟩
  rw [val_main_v48_apply, val_main_v47_apply, val_main_v44_apply, val_main_v43_apply, val_main_v42_apply, val_main_v41_apply,
    val_main_v40_apply, val_main_v46_apply, val_main_v45_apply, val_main_call0_v0_apply, val_main_call0_cst_apply]
  have e1 : idx_main_v41 (idx_main_v42 (ix2 r q)) = ix1 r := funext fun a => Fin.ext (by match a with | ⟨0, _⟩ => rfl)
  have e2 : idx_main_v45 (idx_main_v46 (ix2 r q)) = ix1 q := funext fun a => Fin.ext (by match a with | ⟨0, _⟩ => rfl)
  rw [e1, e2]
  unfold combineClamped combine
  rw [column_cast_apply, shapeCast_a_1a_apply]
  rfl

/-- The second layer's output: the combination of the aggregated messages, the product, the column of normalisation
    factors and the bias row. -/
theorem layer2_eq (x0 : Vec Ideal S100000x10 .f32) (x1 : IVec S2x2500000 32) (x2 : Vec Ideal S10x32 .f32) (x3 : Vec Ideal S32 .f32)
    (x4 : Vec Ideal S32x16 .f32) (x5 : Vec Ideal S16 .f32)
    (hd : S100000.ShapeCasts S100000x1) (hb : S16.ShapeCasts S1x16) :
    combine (val_main_v84 (F := Ideal) x0 x1 x2 x3 x4) (val_main_v49 (F := Ideal) x0 x1 x2 x3 x4)
        (shapeCast S100000x1 (val_main_v56 (F := Ideal) x1) hd) (shapeCast S1x16 x5 hb)
      = val_main_v92 (F := Ideal) x0 x1 x2 x3 x4 x5 := by
  funext i
  obtain ⟨r, q, rfl⟩ : ∃ (r : Fin 100000) (q : Fin 16), i = ix2 r q := ⟨i 0, i 1, eq_ix2 i⟩
  rw [val_main_v92_apply, val_main_v89_apply, val_main_v88_apply, val_main_v87_apply, val_main_v86_apply,
    val_main_v85_apply, val_main_v91_apply, val_main_v90_apply]
  have e1 : idx_main_v86 (idx_main_v87 (ix2 r q)) = ix1 r := funext fun a => Fin.ext (by match a with | ⟨0, _⟩ => rfl)
  have e2 : idx_main_v90 (idx_main_v91 (ix2 r q)) = ix1 q := funext fun a => Fin.ext (by match a with | ⟨0, _⟩ => rfl)
  rw [e1, e2]
  unfold combine
  rw [column_cast_apply, shapeCast_a_1a_apply]
  rfl

end Cert.ReferenceIdeal.Layers

end
-- ==== Proof.Chain.lean ====
/-
  The kernel program's result, boundary by boundary.

  The program is: the split of the edge list into sources and targets; region 0 (h = x W1); the first layer's
  normalisation and neighbour aggregation on the host; region 1 (the first layer's combining stage, clamped at
  zero); region 2 (the product with W2); the second layer's normalisation and aggregation on the host; region 3 (the
  second layer's combining stage). The buffers' contents at each boundary are a fold over the launch memory. Walking
  the fold from the launch to the end, every buffer a later stage reads is identified with the value the reference
  computes for it at the same arguments: each region's output array by the specification of its stage (the region
  modules) and the reference read layer by layer; each host stretch because both programs apply the same host
  operations to the same operands.
-/
import proofs.«137267_j9749575762658_1_alg».proof.Proof.Gen.KernelIdeal.Frame
import proofs.«137267_j9749575762658_1_alg».proof.Proof.Gen.ReferenceIdeal.Read
import proofs.«137267_j9749575762658_1_alg».proof.Proof.Region0
import proofs.«137267_j9749575762658_1_alg».proof.Proof.Region1
import proofs.«137267_j9749575762658_1_alg».proof.Proof.Region2
import proofs.«137267_j9749575762658_1_alg».proof.Proof.Region3
import proofs.«137267_j9749575762658_1_alg».proof.Proof.RefLayers
import Idealize.ShloMosaic.Lib.StableHlo.Run

set_option maxRecDepth 16384

noncomputable section

namespace Cert.KernelIdeal.Chain

open Cert.KernelIdeal Cert.KernelIdeal.Gen Cert.Gcn Cert.ReferenceIdeal.Read
open Idealize.ShloMosaic Idealize.ShloMosaic.TcCoe Idealize.ShloMosaic.StableHlo Idealize.SL.Sem

variable (m : (ℓ : Loc nD τ sig) → Buf (Elt Ideal) ℓ) (ρ : Dev nD → PrngReg) (c : Dev nD)

/-! ## After the edge list is split (region 0's entry) -/

theorem W1_arg0 : W1 m ρ c (Proc.devRef .tc main_arg0) = (m ((c : Thread nD τ).loc main_arg0)) := by
  show StableHlo.after hostOps0 (W0 m ρ c) (Proc.devRef .tc main_arg0) = _
  after_results
theorem W1_arg2 : W1 m ρ c (Proc.devRef .tc main_arg2) = (m ((c : Thread nD τ).loc main_arg2)) := by
  show StableHlo.after hostOps0 (W0 m ρ c) (Proc.devRef .tc main_arg2) = _
  after_results
theorem W1_arg3 : W1 m ρ c (Proc.devRef .tc main_arg3) = (m ((c : Thread nD τ).loc main_arg3)) := by
  show StableHlo.after hostOps0 (W0 m ρ c) (Proc.devRef .tc main_arg3) = _
  after_results
theorem W1_arg4 : W1 m ρ c (Proc.devRef .tc main_arg4) = (m ((c : Thread nD τ).loc main_arg4)) := by
  show StableHlo.after hostOps0 (W0 m ρ c) (Proc.devRef .tc main_arg4) = _
  after_results
theorem W1_arg5 : W1 m ρ c (Proc.devRef .tc main_arg5) = (m ((c : Thread nD τ).loc main_arg5)) := by
  show StableHlo.after hostOps0 (W0 m ρ c) (Proc.devRef .tc main_arg5) = _
  after_results
/-- The edges' sources. -/
theorem W1_v1 : W1 m ρ c (Proc.devRef .tc main_v1) = val_main_v1 (F := Ideal) (m ((c : Thread nD τ).loc main_arg1)) := by
  show StableHlo.after hostOps0 (W0 m ρ c) (Proc.devRef .tc main_v1) = _
  after_results
  rfl
/-- The edges' targets. -/
theorem W1_v3 : W1 m ρ c (Proc.devRef .tc main_v3) = val_main_v3 (F := Ideal) (m ((c : Thread nD τ).loc main_arg1)) := by
  show StableHlo.after hostOps0 (W0 m ρ c) (Proc.devRef .tc main_v3) = _
  after_results
  rfl

/-! ## After region 0: h = x W1 -/

theorem W2_v4 : W2 m ρ c (Proc.devRef .tc main_v4) = val_main_v4 (F := Ideal) (m ((c : Thread nD τ).loc main_arg0)) (m ((c : Thread nD τ).loc main_arg2)) := by
  refine (W2_arr m ρ c 2).trans ?_
  rw [Region0.final (V1 m ρ) c]
  show transform (W1 m ρ c (Proc.devRef .tc main_arg0)) (W1 m ρ c (Proc.devRef .tc main_arg2)) = _
  rw [W1_arg0 m ρ c, W1_arg2 m ρ c]
  exact Cert.ReferenceIdeal.Layers.transform1_eq _ _
theorem W2_v1 : W2 m ρ c (Proc.devRef .tc main_v1) = val_main_v1 (F := Ideal) (m ((c : Thread nD τ).loc main_arg1)) :=
  (W2_of_ne m ρ c main_v1 (by decide)).trans (W1_v1 m ρ c)
theorem W2_v3 : W2 m ρ c (Proc.devRef .tc main_v3) = val_main_v3 (F := Ideal) (m ((c : Thread nD τ).loc main_arg1)) :=
  (W2_of_ne m ρ c main_v3 (by decide)).trans (W1_v3 m ρ c)
theorem W2_arg3 : W2 m ρ c (Proc.devRef .tc main_arg3) = (m ((c : Thread nD τ).loc main_arg3)) :=
  (W2_of_ne m ρ c main_arg3 (by decide)).trans (W1_arg3 m ρ c)
theorem W2_arg4 : W2 m ρ c (Proc.devRef .tc main_arg4) = (m ((c : Thread nD τ).loc main_arg4)) :=
  (W2_of_ne m ρ c main_arg4 (by decide)).trans (W1_arg4 m ρ c)
theorem W2_arg5 : W2 m ρ c (Proc.devRef .tc main_arg5) = (m ((c : Thread nD τ).loc main_arg5)) :=
  (W2_of_ne m ρ c main_arg5 (by decide)).trans (W1_arg5 m ρ c)

/-! ## After the first layer's host stretch (region 1's entry) -/

/-- The aggregated messages of the first layer: the same gathers, products and scatter-add as the reference's, of
    the same h, sources and targets. -/
theorem W3_v39 : W3 m ρ c (Proc.devRef .tc main_v39) = val_main_v39 (F := Ideal) (m ((c : Thread nD τ).loc main_arg0)) (m ((c : Thread nD τ).loc main_arg1)) (m ((c : Thread nD τ).loc main_arg2)) := by
  show StableHlo.after hostOps1 (W2 m ρ c) (Proc.devRef .tc main_v39) = _
  after_results_simp
  rw [W2_v4 m ρ c, W2_v1 m ρ c, W2_v3 m ρ c]
  rfl
theorem W3_v4 : W3 m ρ c (Proc.devRef .tc main_v4) = val_main_v4 (F := Ideal) (m ((c : Thread nD τ).loc main_arg0)) (m ((c : Thread nD τ).loc main_arg2)) := by
  show StableHlo.after hostOps1 (W2 m ρ c) (Proc.devRef .tc main_v4) = _
  after_results_simp
  exact W2_v4 m ρ c
/-- The column of normalisation factors. -/
theorem W3_v40 : W3 m ρ c (Proc.devRef .tc main_v40) = shapeCast S100000x1 (val_main_v11 (F := Ideal) (m ((c : Thread nD τ).loc main_arg1))) shapeCasts_S100000_S100000x1 := by
  show StableHlo.after hostOps1 (W2 m ρ c) (Proc.devRef .tc main_v40) = _
  after_results_simp
  rw [W2_v3 m ρ c]
  rfl
/-- The bias as a row. -/
theorem W3_v41 : W3 m ρ c (Proc.devRef .tc main_v41) = shapeCast S1x32 (m ((c : Thread nD τ).loc main_arg3)) shapeCasts_S32_S1x32 := by
  show StableHlo.after hostOps1 (W2 m ρ c) (Proc.devRef .tc main_v41) = _
  after_results_simp
  rw [W2_arg3 m ρ c]
  rfl
theorem W3_v1 : W3 m ρ c (Proc.devRef .tc main_v1) = val_main_v1 (F := Ideal) (m ((c : Thread nD τ).loc main_arg1)) := by
  show StableHlo.after hostOps1 (W2 m ρ c) (Proc.devRef .tc main_v1) = _
  after_results_simp
  exact W2_v1 m ρ c
theorem W3_v3 : W3 m ρ c (Proc.devRef .tc main_v3) = val_main_v3 (F := Ideal) (m ((c : Thread nD τ).loc main_arg1)) := by
  show StableHlo.after hostOps1 (W2 m ρ c) (Proc.devRef .tc main_v3) = _
  after_results_simp
  exact W2_v3 m ρ c
theorem W3_arg4 : W3 m ρ c (Proc.devRef .tc main_arg4) = (m ((c : Thread nD τ).loc main_arg4)) := by
  show StableHlo.after hostOps1 (W2 m ρ c) (Proc.devRef .tc main_arg4) = _
  after_results_simp
  exact W2_arg4 m ρ c
theorem W3_arg5 : W3 m ρ c (Proc.devRef .tc main_arg5) = (m ((c : Thread nD τ).loc main_arg5)) := by
  show StableHlo.after hostOps1 (W2 m ρ c) (Proc.devRef .tc main_arg5) = _
  after_results_simp
  exact W2_arg5 m ρ c

/-! ## After region 1: the first layer's output -/

theorem W4_v42 : W4 m ρ c (Proc.devRef .tc main_v42) = val_main_v48 (F := Ideal) (m ((c : Thread nD τ).loc main_arg0)) (m ((c : Thread nD τ).loc main_arg1)) (m ((c : Thread nD τ).loc main_arg2)) (m ((c : Thread nD τ).loc main_arg3)) := by
  refine (W4_arr m ρ c 4).trans ?_
  rw [Region1.final (V3 m ρ) c]
  show combineClamped (W3 m ρ c (Proc.devRef .tc main_v39)) (W3 m ρ c (Proc.devRef .tc main_v4)) (W3 m ρ c (Proc.devRef .tc main_v40)) (W3 m ρ c (Proc.devRef .tc main_v41)) = _
  rw [W3_v39 m ρ c, W3_v4 m ρ c, W3_v40 m ρ c, W3_v41 m ρ c]
  exact Cert.ReferenceIdeal.Layers.layer1_eq _ _ _ _ _ _
theorem W4_v1 : W4 m ρ c (Proc.devRef .tc main_v1) = val_main_v1 (F := Ideal) (m ((c : Thread nD τ).loc main_arg1)) :=
  (W4_of_ne m ρ c main_v1 (by decide)).trans (W3_v1 m ρ c)
theorem W4_v3 : W4 m ρ c (Proc.devRef .tc main_v3) = val_main_v3 (F := Ideal) (m ((c : Thread nD τ).loc main_arg1)) :=
  (W4_of_ne m ρ c main_v3 (by decide)).trans (W3_v3 m ρ c)
theorem W4_arg4 : W4 m ρ c (Proc.devRef .tc main_arg4) = (m ((c : Thread nD τ).loc main_arg4)) :=
  (W4_of_ne m ρ c main_arg4 (by decide)).trans (W3_arg4 m ρ c)
theorem W4_arg5 : W4 m ρ c (Proc.devRef .tc main_arg5) = (m ((c : Thread nD τ).loc main_arg5)) :=
  (W4_of_ne m ρ c main_arg5 (by decide)).trans (W3_arg5 m ρ c)

/-! ## After region 2: the product with W2 -/

theorem W5_v43 : W5 m ρ c (Proc.devRef .tc main_v43) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ?_
  rw [Region2.final (V4 m ρ) c]
  show transform (W4 m ρ c (Proc.devRef .tc main_v42)) (W4 m ρ c (Proc.devRef .tc main_arg4)) = _
  rw [W4_v42 m ρ c, W4_arg4 m ρ c]
  exact Cert.ReferenceIdeal.Layers.transform2_eq _ _ _ _ _
theorem W5_v1 : W5 m ρ c (Proc.devRef .tc main_v1) = val_main_v1 (F := Ideal) (m ((c : Thread nD τ).loc main_arg1)) :=
  (W5_of_ne m ρ c main_v1 (by decide)).trans (W4_v1 m ρ c)
theorem W5_v3 : W5 m ρ c (Proc.devRef .tc main_v3) = val_main_v3 (F := Ideal) (m ((c : Thread nD τ).loc main_arg1)) :=
  (W5_of_ne m ρ c main_v3 (by decide)).trans (W4_v3 m ρ c)
theorem W5_arg5 : W5 m ρ c (Proc.devRef .tc main_arg5) = (m ((c : Thread nD τ).loc main_arg5)) :=
  (W5_of_ne m ρ c main_arg5 (by decide)).trans (W4_arg5 m ρ c)

/-! ## After the second layer's host stretch (region 3's entry) -/

/-- The aggregated messages of the second layer. -/
theorem W6_v78 : W6 m ρ c (Proc.devRef .tc main_v78) = val_main_v84 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v78) = _
  after_results_simp
  rw [W5_v43 m ρ c, W5_v1 m ρ c, W5_v3 m ρ c]
  rfl
theorem W6_v43 : W6 m ρ c (Proc.devRef .tc main_v43) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show StableHlo.after hostOps3 (W5 m ρ c) (Proc.devRef .tc main_v43) = _
  after_results_simp
  exact W5_v43 m ρ c
theorem W6_v79 : W6 m ρ c (Proc.devRef .tc main_v79) = shapeCast S100000x1 (val_main_v56 (F := Ideal) (m ((c : Thread nD τ).loc main_arg1))) shapeCasts_S100000_S100000x1 := by
  show StableHlo.after hostOps3 (W5 m ρ c) (Proc.devRef .tc main_v79) = _
  after_results_simp
  rw [W5_v3 m ρ c]
  rfl
theorem W6_v80 : W6 m ρ c (Proc.devRef .tc main_v80) = shapeCast S1x16 (m ((c : Thread nD τ).loc main_arg5)) shapeCasts_S16_S1x16 := by
  show StableHlo.after hostOps3 (W5 m ρ c) (Proc.devRef .tc main_v80) = _
  after_results_simp
  rw [W5_arg5 m ρ c]
  rfl

/-! ## After region 3: the result -/

/-- The kernel program's result buffer ends holding the value the reference computes at the same arguments. -/
theorem W7_v81 : W7 m ρ c (Proc.devRef .tc main_v81)
    = val_main_v92 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 4).trans ?_
  rw [Region3.final (V6 m ρ) c]
  show combine (W6 m ρ c (Proc.devRef .tc main_v78)) (W6 m ρ c (Proc.devRef .tc main_v43)) (W6 m ρ c (Proc.devRef .tc main_v79)) (W6 m ρ c (Proc.devRef .tc main_v80)) = _
  rw [W6_v78 m ρ c, W6_v43 m ρ c, W6_v79 m ρ c, W6_v80 m ρ c]
  exact Cert.ReferenceIdeal.Layers.layer2_eq _ _ _ _ _ _ _ _

end Cert.KernelIdeal.Chain

end
-- ==== Proof.lean ====
/-
  A two-layer graph convolution with self-loops and symmetric normalisation: the kernel program and its reference
  are equal on the extended reals.

  Both programs compute, for each layer, h = x W; the in-degrees (+1 for the self-loop) by a scatter-add of ones
  over the edges' targets, dinv = rsqrt(deg); per edge the factor dinv[src] * dinv[dst]; the neighbour aggregation
  agg = scatter-add over targets of h[src] * factor; and out = agg + h * dinv^2 + b, followed after the first layer
  by a maximum with zero. The kernel program does the two dense stages of each layer in pipelined regions — the
  product over blocks of 5000 rows with bf16-rounded operands (the identity on extended reals) into a zero
  accumulator, and the combination over blocks of 5000 rows — and the rest on the host with the same operations as
  the reference. So the two results are one function of the arguments:
    * a block product summed over the contracted axis is the host product's entry (no reordering: one sum over k);
    * the combining body's a + h * d^2 + b, with d the [N, 1] cast of dinv and b the [1, W] cast of the bias, is the
      reference's agg + h * (dinv * dinv)[:, None] + b entry by entry;
    * the gathers and scatter-adds are applied by both programs to equal operands and are never opened.
  No law used needs finiteness: the precondition is not opened.

  The frames of the two kernel programs are the generated ones; the reference's frame is its run with the result
  dropped; the ideal pass rewrote nothing, so `preserves` is `True`.
-/
import proofs.«137267_j9749575762658_1_alg».proof.Defs
import proofs.«137267_j9749575762658_1_alg».proof.Proof.Gen.Kernel
import proofs.«137267_j9749575762658_1_alg».proof.Proof.Gen.Kernel.Skeleton
import proofs.«137267_j9749575762658_1_alg».proof.Proof.Gen.Kernel.Launch
import proofs.«137267_j9749575762658_1_alg».proof.Proof.Gen.Kernel.Points
import proofs.«137267_j9749575762658_1_alg».proof.Proof.Gen.Kernel.Frame
import proofs.«137267_j9749575762658_1_alg».proof.Proof.Gen.KernelIdeal
import proofs.«137267_j9749575762658_1_alg».proof.Proof.Gen.KernelIdeal.Skeleton
import proofs.«137267_j9749575762658_1_alg».proof.Proof.Gen.KernelIdeal.Launch
import proofs.«137267_j9749575762658_1_alg».proof.Proof.Gen.KernelIdeal.Points
import proofs.«137267_j9749575762658_1_alg».proof.Proof.Gen.KernelIdeal.Frame
import proofs.«137267_j9749575762658_1_alg».proof.Proof.Gen.ReferenceIdeal
import proofs.«137267_j9749575762658_1_alg».proof.Proof.Gen.Pre_finite_inputs
import proofs.«137267_j9749575762658_1_alg».proof.Proof.Gen.ReferenceIdeal.Run
import proofs.«137267_j9749575762658_1_alg».proof.Proof.Gen.ReferenceIdeal.Read
import proofs.«137267_j9749575762658_1_alg».proof.Proof.KernelRun
import proofs.«137267_j9749575762658_1_alg».proof.Proof.Chain
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel program's run at the ideal values: its result is the reference's last stage at the same arguments,
    and the arguments end as launched. -/
theorem kernel_run (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v81)
        = Cert.ReferenceIdeal.Read.val_main_v92 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))
            (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono (fun _ h c => ⟨(h c).1.trans (Cert.KernelIdeal.Chain.W7_v81 m ρ c), (h c).2⟩)
    (Cert.KernelIdeal.RunValue.run_value (F := Ideal) m ρ)

/-- From memories agreeing on the arguments both programs end with the same result: the reference's run ends at its
    last stage of its arguments, which are the kernel program's. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v92_eq]
  obtain ⟨h0, h1, h2, h3, h4, h5⟩ := hagree c
  rw [h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
